-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S2000000 32) (main_arg3 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S2000000 : Shape := ⟨1, ![2000000]⟩
abbrev S_ : Shape := ⟨0, ![]⟩
abbrev S4000000 : Shape := ⟨1, ![4000000]⟩
abbrev S150000 : Shape := ⟨1, ![150000]⟩
abbrev S4000000x1 : Shape := ⟨2, ![4000000, 1]⟩
abbrev S150000x1 : Shape := ⟨2, ![150000, 1]⟩
abbrev S150000x64 : Shape := ⟨2, ![150000, 64]⟩
abbrev S5000x64 : Shape := ⟨2, ![5000, 64]⟩
abbrev S5000x1 : Shape := ⟨2, ![5000, 1]⟩
abbrev S4000000x64 : Shape := ⟨2, ![4000000, 64]⟩

abbrev nBuf : Space → Nat
  | .hbm => 78
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S150000, .f32⟩
  | .hbm, ⟨16, _⟩ => ⟨S4000000x1, .i32⟩
  | .hbm, ⟨17, _⟩ => ⟨S150000, .f32⟩
  | .hbm, ⟨18, _⟩ => ⟨S_, .f32⟩
  | .hbm, ⟨19, _⟩ => ⟨S150000, .f32⟩
  | .hbm, ⟨20, _⟩ => ⟨S150000, .i1⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S150000x1, .f32⟩
  | .hbm, ⟨30, _⟩ => ⟨S150000x64, .f32⟩
  | .hbm, ⟨31, _⟩ => ⟨S150000x64, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000x64, .f32⟩
  | .hbm, ⟨41, _⟩ => ⟨S_, .f32⟩
  | .hbm, ⟨42, _⟩ => ⟨S150000x64, .f32⟩
  | .hbm, ⟨43, _⟩ => ⟨S4000000x1, .i32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x64, .f32⟩
  | .hbm, ⟨56, _⟩ => ⟨S_, .f32⟩
  | .hbm, ⟨57, _⟩ => ⟨S150000x64, .f32⟩
  | .hbm, ⟨58, _⟩ => ⟨S4000000x1, .i32⟩
  | .hbm, ⟨59, _⟩ => ⟨S150000x64, .f32⟩
  | .hbm, ⟨60, _⟩ => ⟨S150000x64, .f32⟩
  | .hbm, ⟨61, _⟩ => ⟨S150000x64, .f32⟩
  | .hbm, ⟨62, _⟩ => ⟨S_, .i32⟩
  | .hbm, ⟨63, _⟩ => ⟨S4000000, .i32⟩
  | .hbm, ⟨64, _⟩ => ⟨S4000000, .i1⟩
  | .hbm, ⟨65, _⟩ => ⟨S_, .i32⟩
  | .hbm, ⟨66, _⟩ => ⟨S4000000, .i32⟩
  | .hbm, ⟨67, _⟩ => ⟨S4000000, .i32⟩
  | .hbm, ⟨68, _⟩ => ⟨S4000000, .i32⟩
  | .hbm, ⟨69, _⟩ => ⟨S4000000x1, .i32⟩
  | .hbm, ⟨70, _⟩ => ⟨S4000000x64, .f32⟩
  | .hbm, ⟨71, _⟩ => ⟨S_, .f32⟩
  | .hbm, ⟨72, _⟩ => ⟨S150000x64, .f32⟩
  | .hbm, ⟨73, _⟩ => ⟨S4000000x1, .i32⟩
  | .hbm, ⟨74, _⟩ => ⟨S150000x64, .f32⟩
  | .hbm, ⟨75, _⟩ => ⟨S150000x64, .f32⟩
  | .hbm, ⟨76, _⟩ => ⟨S150000x64, .f32⟩
  | .hbm, ⟨77, _⟩ => ⟨S150000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S150000_S150000x1_0 : S150000.BroadcastsInDim S150000x1 (![0] : Fin 1 → Fin S150000x1.rank)
  concatenates_S100000x64_S50000x64_S150000x64_d0 : Shape.Concatenates [S100000x64, S50000x64] S150000x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S150000x64 : S_.BroadcastsInDim S150000x64 (![] : Fin 0 → Fin S150000x64.rank)
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S150000x1.size a
  hwx0_1 : ∀ i : grid0.Coords, EltTy.bits .f32 = 32 ∨ (Rect.block (s := S150000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S150000x1.size a
  hwx1_1 : ∀ i : grid1.Coords, EltTy.bits .f32 = 32 ∨ (Rect.block (s := S150000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S150000x64.size a
  hwx1_3 : ∀ i : grid1.Coords, EltTy.bits .f32 = 32 ∨ (Rect.block (s := S150000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S150000x1.size a
  hwx2_1 : ∀ i : grid2.Coords, EltTy.bits .f32 = 32 ∨ (Rect.block (s := S150000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S150000x64.size a
  hwx2_2 : ∀ i : grid2.Coords, EltTy.bits .f32 = 32 ∨ (Rect.block (s := S150000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S150000x64.size a
  hwx2_3 : ∀ i : grid2.Coords, EltTy.bits .f32 = 32 ∨ (Rect.block (s := S150000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S150000x1.size a
  hwx3_1 : ∀ i : grid3.Coords, EltTy.bits .f32 = 32 ∨ (Rect.block (s := S150000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S150000x64.size a
  hwx4_0 : ∀ i : grid4.Coords, EltTy.bits .f32 = 32 ∨ (Rect.block (s := S150000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S150000x64.size a
  hwx4_1 : ∀ i : grid4.Coords, EltTy.bits .f32 = 32 ∨ (Rect.block (s := S150000x64) S5000x64.size (cc4_transform_1 i) (hinb4_1 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v51_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v51_1) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S_ : Shape := ⟨0, ![]⟩
abbrev S4000000 : Shape := ⟨1, ![4000000]⟩
abbrev S150000 : Shape := ⟨1, ![150000]⟩
abbrev S4000000x1 : Shape := ⟨2, ![4000000, 1]⟩
abbrev S150000x64 : Shape := ⟨2, ![150000, 64]⟩
abbrev S4000000x64 : Shape := ⟨2, ![4000000, 64]⟩
abbrev S150000x1 : Shape := ⟨2, ![150000, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S150000, .f32⟩
  | .hbm, ⟨16, _⟩ => ⟨S4000000x1, .i32⟩
  | .hbm, ⟨17, _⟩ => ⟨S150000, .f32⟩
  | .hbm, ⟨18, _⟩ => ⟨S_, .f32⟩
  | .hbm, ⟨19, _⟩ => ⟨S150000, .f32⟩
  | .hbm, ⟨20, _⟩ => ⟨S150000, .i1⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S150000x64, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x64, .f32⟩
  | .hbm, ⟨39, _⟩ => ⟨S_, .i32⟩
  | .hbm, ⟨40, _⟩ => ⟨S4000000, .i32⟩
  | .hbm, ⟨41, _⟩ => ⟨S4000000, .i1⟩
  | .hbm, ⟨42, _⟩ => ⟨S_, .i32⟩
  | .hbm, ⟨43, _⟩ => ⟨S4000000, .i32⟩
  | .hbm, ⟨44, _⟩ => ⟨S4000000, .i32⟩
  | .hbm, ⟨45, _⟩ => ⟨S4000000, .i32⟩
  | .hbm, ⟨46, _⟩ => ⟨S4000000x1, .i32⟩
  | .hbm, ⟨47, _⟩ => ⟨S4000000, .f32⟩
  | .hbm, ⟨48, _⟩ => ⟨S4000000x1, .f32⟩
  | .hbm, ⟨49, _⟩ => ⟨S4000000x64, .f32⟩
  | .hbm, ⟨50, _⟩ => ⟨S4000000x64, .f32⟩
  | .hbm, ⟨51, _⟩ => ⟨S150000x1, .f32⟩
  | .hbm, ⟨52, _⟩ => ⟨S_, .f32⟩
  | .hbm, ⟨53, _⟩ => ⟨S150000x64, .f32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S150000x64, .f32⟩
  | .hbm, ⟨58, _⟩ => ⟨S150000x64, .f32⟩
  | .hbm, ⟨59, _⟩ => ⟨S_, .i32⟩
  | .hbm, ⟨60, _⟩ => ⟨S4000000, .i32⟩
  | .hbm, ⟨61, _⟩ => ⟨S4000000, .i1⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000x1, .i32⟩
  | .hbm, ⟨67, _⟩ => ⟨S4000000x64, .f32⟩
  | .hbm, ⟨68, _⟩ => ⟨S_, .i32⟩
  | .hbm, ⟨69, _⟩ => ⟨S4000000, .i32⟩
  | .hbm, ⟨70, _⟩ => ⟨S4000000, .i1⟩
  | .hbm, ⟨71, _⟩ => ⟨S_, .i32⟩
  | .hbm, ⟨72, _⟩ => ⟨S4000000, .i32⟩
  | .hbm, ⟨73, _⟩ => ⟨S4000000, .i32⟩
  | .hbm, ⟨74, _⟩ => ⟨S4000000, .i32⟩
  | .hbm, ⟨75, _⟩ => ⟨S4000000x1, .i32⟩
  | .hbm, ⟨76, _⟩ => ⟨S4000000, .f32⟩
  | .hbm, ⟨77, _⟩ => ⟨S4000000x1, .f32⟩
  | .hbm, ⟨78, _⟩ => ⟨S4000000x64, .f32⟩
  | .hbm, ⟨79, _⟩ => ⟨S4000000x64, .f32⟩
  | .hbm, ⟨80, _⟩ => ⟨S150000x1, .f32⟩
  | .hbm, ⟨81, _⟩ => ⟨S_, .f32⟩
  | .hbm, ⟨82, _⟩ => ⟨S150000x64, .f32⟩
  | .hbm, ⟨83, _⟩ => ⟨S4000000x1, .i32⟩
  | .hbm, ⟨84, _⟩ => ⟨S150000x64, .f32⟩
  | .hbm, ⟨85, _⟩ => ⟨S150000x64, .f32⟩
  | .hbm, ⟨86, _⟩ => ⟨S150000x64, .f32⟩
  | .hbm, ⟨87, _⟩ => ⟨S150000x64, .f32⟩
  | .hbm, ⟨88, _⟩ => ⟨S_, .i32⟩
  | .hbm, ⟨89, _⟩ => ⟨S4000000, .i32⟩
  | .hbm, ⟨90, _⟩ => ⟨S4000000, .i1⟩
  | .hbm, ⟨91, _⟩ => ⟨S_, .i32⟩
  | .hbm, ⟨92, _⟩ => ⟨S4000000, .i32⟩
  | .hbm, ⟨93, _⟩ => ⟨S4000000, .i32⟩
  | .hbm, ⟨94, _⟩ => ⟨S4000000, .i32⟩
  | .hbm, ⟨95, _⟩ => ⟨S4000000x1, .i32⟩
  | .hbm, ⟨96, _⟩ => ⟨S4000000x64, .f32⟩
  | .hbm, ⟨97, _⟩ => ⟨S_, .i32⟩
  | .hbm, ⟨98, _⟩ => ⟨S4000000, .i32⟩
  | .hbm, ⟨99, _⟩ => ⟨S4000000, .i1⟩
  | .hbm, ⟨100, _⟩ => ⟨S_, .i32⟩
  | .hbm, ⟨101, _⟩ => ⟨S4000000, .i32⟩
  | .hbm, ⟨102, _⟩ => ⟨S4000000, .i32⟩
  | .hbm, ⟨103, _⟩ => ⟨S4000000, .i32⟩
  | .hbm, ⟨104, _⟩ => ⟨S4000000x1, .i32⟩
  | .hbm, ⟨105, _⟩ => ⟨S4000000, .f32⟩
  | .hbm, ⟨106, _⟩ => ⟨S4000000x1, .f32⟩
  | .hbm, ⟨107, _⟩ => ⟨S4000000x64, .f32⟩
  | .hbm, ⟨108, _⟩ => ⟨S4000000x64, .f32⟩
  | .hbm, ⟨109, _⟩ => ⟨S150000x1, .f32⟩
  | .hbm, ⟨110, _⟩ => ⟨S_, .f32⟩
  | .hbm, ⟨111, _⟩ => ⟨S150000x64, .f32⟩
  | .hbm, ⟨112, _⟩ => ⟨S4000000x1, .i32⟩
  | .hbm, ⟨113, _⟩ => ⟨S150000x64, .f32⟩
  | .hbm, ⟨114, _⟩ => ⟨S150000x64, .f32⟩
  | .hbm, ⟨115, _⟩ => ⟨S150000x64, .f32⟩
  | .hbm, ⟨116, _⟩ => ⟨S150000x64, .f32⟩
  | .hbm, ⟨117, _⟩ => ⟨S_, .f32⟩
  | .hbm, ⟨118, _⟩ => ⟨S150000x64, .f32⟩
  | .hbm, ⟨119, _⟩ => ⟨S150000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_17 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  concatenates_S100000x64_S50000x64_S150000x64_d0 : Shape.Concatenates [S100000x64, S50000x64] S150000x64 0
  bcast_S4000000x1_S4000000x64_0_1 : S4000000x1.BroadcastsInDim S4000000x64 (![0, 1] : Fin 2 → Fin S4000000x64.rank)
  bcast_S150000_S150000x1_0 : S150000.BroadcastsInDim S150000x1 (![0] : Fin 1 → Fin S150000x1.rank)
  bcast_S_S150000x64 : S_.BroadcastsInDim S150000x64 (![] : Fin 0 → Fin S150000x64.rank)
  bcast_S150000x1_S150000x64_0_1 : S150000x1.BroadcastsInDim S150000x64 (![0, 1] : Fin 2 → Fin S150000x64.rank)
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  gather_S150000_S4000000x1_S4000000_n_0_n_n_0_1_1_wf : GatherDims.WF S150000 S4000000x1 S4000000 [] [0] [] [0] [] 1 ![1]
  scatter_S150000x64_S4000000x1_S4000000x64_1_0_0_1_wf : ScatterDims.WF S150000x64 S4000000x1 S4000000x64 [1] [0] [0] 1

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.KernelRun.lean ====
/-
  The kernel program's run with its result named.

  The program is five launches among stretches of host operations. Its generated frame walks the buffer contents from
  the launch memory through every stretch and every launch to the last boundary (`Gen.W11`), and keeps of that last
  boundary only the argument arrays. Here the same run keeps one buffer more: after every weakly fair execution the
  result buffer holds the last boundary's contents at the result, `W11 m ρ c main_v52` — what the last launch (the
  mean over the four stacked embeddings) leaves in its output array — and the arguments are as launched.
-/
import proofs.«146842_j69329362092551_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and the four argument arrays as launched. -/
theorem run_result : θ_run defs (onTc (τ := τ) (main (F := F))) ⟨m, fun _ => 0, ρ⟩ (fun r => ∀ c : Dev nD,
      r.2.mem ((c.tc : Thread nD τ).loc main_v52) = W11 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v52 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.RunValue

end
-- ==== Proof.ScalePass.lean ====
/-
  The pre-scaling pass: the first launch multiplies every row of the node array by its node's factor.

  The launch walks 30 blocks of 5000 rows. At block t the body loads rows [5000 t, 5000 t + 5000) of the node array
  h : [150000, 64] and the same rows of the factor column n : [150000, 1], spreads the column over the 64 features and
  multiplies. So what block t writes back is block t of the ONE whole-array function
      i ↦ h i · n (i₀, 0),
  and the 30 blocks tile the array: after the launch the output array IS that function. The statement is for any
  contents `V` the launch is entered from and for any float instance.
-/
import proofs.«146842_j69329362092551_1_alg».proof.Proof.Gen.KernelIdeal.Frame
import Idealize.ShloMosaic.Lib.Pipeline.Value
import Idealize.ShloMosaic.Lib.ValueIdx

noncomputable section

namespace Cert.KernelIdeal.NodeMaps

open Cert.KernelIdeal Idealize.ShloMosaic Idealize.ShloMosaic.ValueIdx

variable {F : FTy → Type} [FloatOps F]

/-- Every row of `h` times its node's entry of the column `n`. -/
abbrev scaleRows (h : S150000x64.Idx → Elt F .f32) (n : S150000x1.Idx → Elt F .f32) : S150000x64.Idx → Elt F .f32 :=
  fun i => FloatOps.mulf (h i) (n (ix2 (n0 := 150000) (i 0) (0 : Fin 1)))

/-- Every row of `x` times its node's factor, twice: the next layer's pre-scaled array. -/
abbrev scaleRowsTwice (x : S150000x64.Idx → Elt F .f32) (n : S150000x1.Idx → Elt F .f32) : S150000x64.Idx → Elt F .f32 :=
  fun i => FloatOps.mulf (FloatOps.mulf (x i) (n (ix2 (n0 := 150000) (i 0) (0 : Fin 1)))) (n (ix2 (n0 := 150000) (i 0) (0 : Fin 1)))

/-- The running sum `a` plus every row of `x` times its node's factor. -/
abbrev addScaledRows (x : S150000x64.Idx → Elt F .f32) (n : S150000x1.Idx → Elt F .f32) (a : S150000x64.Idx → Elt F .f32) :
    S150000x64.Idx → Elt F .f32 :=
  fun i => FloatOps.addf (a i) (FloatOps.mulf (x i) (n (ix2 (n0 := 150000) (i 0) (0 : Fin 1))))

/-- Every entry times the float 0.25. -/
abbrev quarter (a : S150000x64.Idx → Elt F .f32) : S150000x64.Idx → Elt F .f32 :=
  fun i => FloatOps.mulf (a i) (Scalar.ofBits .f32 0x3E800000#32)

/-- The offsets of a whole-block access are all zero. -/
theorem hz : (![0, 0] : Fin 2 → Nat) = fun _ => 0 := funext fun a => by fin_cases a <;> rfl

end Cert.KernelIdeal.NodeMaps

namespace Cert.KernelIdeal.ScalePass

open Cert.KernelIdeal Cert.KernelIdeal.Gen Cert.KernelIdeal.NodeMaps Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The body's product at an entry of the block: the loaded row entry times the loaded column entry of that row. -/
theorem pay_apply (x0 : Vec F S5000x64 .f32) (x1 : Vec F S5000x1 .f32) (j : S5000x64.Idx) :
    k0_pay1 x0 x1 j = FloatOps.mulf (x0 j) (x1 (ix2 (n0 := 5000) (j 0) (0 : Fin 1))) := by
  unfold k0_pay1
  show FloatOps.mulf (shapeCast S5000x64 x0 shapeCasts_S5000x64_S5000x64 j)
    (broadcastTo S5000x64 (shapeCast S5000x1 x1 shapeCasts_S5000x1_S5000x1) broadcasts_S5000x1_S5000x64 j) = _
  rw [shapeCast_self, shapeCast_self,
    broadcastTo_apply x1 broadcasts_S5000x1_S5000x64 j (ix2 (n0 := 5000) (j 0) (0 : Fin 1))
      (fun a => by match a with | ⟨0, _⟩ => rfl | ⟨1, _⟩ => rfl)]

/-- All three windows sit at block row `t`, column block 0, and the block rows stay below 30. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 29 :=
  (by decide +kernel : ∀ t : Fin grid0.N, _)

/-- Every block row is some point's. -/
theorem idx_onto : ∀ q : Fin 30, ∃ t : Fin cfg0.N, win0_2.index t = ![q.val, 0] :=
  (by decide +kernel : ∀ q : Fin 30, ∃ t : Fin grid0.N, win0_2.index t = ![q.val, 0])

/-- What point `t` writes back is block `t` of the scaled array. -/
theorem flushed_eq (c : Dev nD) (t : Fin cfg0.N) :
    (dat0 V c).flushed 2 t = ((cfg0.win 2).blk t).view.read (Elt F) (scaleRows (V c main_v17) (V c main_v16)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  show k0_pay1 (iblk0 V c 0 t) (iblk0 V c 1 t) j = _
  refine (pay_apply (iblk0 V c 0 t) (iblk0 V c 1 t) j).trans ?_
  show FloatOps.mulf (V c main_v17 (((cfg0.win 0).blk t).view.emb j))
      (V c main_v16 (((cfg0.win 1).blk t).view.emb (ix2 (n0 := 5000) (j 0) (0 : Fin 1))))
    = FloatOps.mulf (V c main_v17 (((cfg0.win 2).blk t).view.emb j))
      (V c main_v16 (ix2 (n0 := 150000) ((((cfg0.win 2).blk t).view.emb j) 0) (0 : Fin 1)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (n0 := 5000) (j 0) (0 : Fin 1))
      = ix2 (n0 := 150000) ((((cfg0.win 2).blk t).view.emb j) 0) (0 : Fin 1) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the array is in point `t`'s block iff each coordinate is in the block's range on its axis. -/
theorem mem_blk (t : Fin cfg0.N) (i : S150000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v18).slice (win0_2.rect t)).set ↔ _
  rw [View.set_slice_whole, Rect.mem_set_unit]
  exact Iff.rfl

/-- Row `r` lies in the block of point `r / 5000`: the blocks tile the array. -/
theorem cover (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY after the launch: every row of the node array times its node's factor. -/
theorem arr_scaled (c : Dev nD) : (dat0 V c).arrAt 2 cfg0.N = scaleRows (V c main_v17) (V c main_v16) :=
  (dat0 V c).arrAt_eq_of_cover 2 (scaleRows (V c main_v17) (V c main_v16)) (fun t _ => flushed_eq V c t) cover

end Cert.KernelIdeal.ScalePass

end
-- ==== Proof.LayerPass1.lean ====
/-
  Layer pass 1: one launch normalises the aggregated messages, prepares the next layer's pre-scaled array and
  adds the new layer embedding to the running sum.

  The launch walks 30 blocks of 5000 rows. At block t the body loads rows [5000 t, 5000 t + 5000) of the aggregated
  messages x : [150000, 64], of the factor column n : [150000, 1] and of the running sum a : [150000, 64]; with
  y = x · n (the column spread over the 64 features) it stores y · n into the first output and a + y into the
  second. So the two blocks written back at t are blocks t of the whole-array functions
      i ↦ (x i · n (i₀, 0)) · n (i₀, 0)      and      i ↦ a i + x i · n (i₀, 0),
  and the 30 blocks tile each output array. The statements are for any contents `V` the launch is entered from
  and for any float instance.
-/
import proofs.«146842_j69329362092551_1_alg».proof.Proof.ScalePass

noncomputable section

namespace Cert.KernelIdeal.LayerPass1

open Cert.KernelIdeal Cert.KernelIdeal.Gen Cert.KernelIdeal.NodeMaps Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The normalised message at an entry of the block: the loaded entry times the loaded factor of its row. -/
theorem pay1_apply (x0 : Vec F S5000x64 .f32) (x1 : Vec F S5000x1 .f32) (j : S5000x64.Idx) :
    k1_pay1 x0 x1 j = FloatOps.mulf (x0 j) (x1 (ix2 (n0 := 5000) (j 0) (0 : Fin 1))) := by
  unfold k1_pay1
  show FloatOps.mulf (shapeCast S5000x64 x0 shapeCasts_S5000x64_S5000x64 j)
    (broadcastTo S5000x64 (shapeCast S5000x1 x1 shapeCasts_S5000x1_S5000x1) broadcasts_S5000x1_S5000x64 j) = _
  rw [shapeCast_self, shapeCast_self,
    broadcastTo_apply x1 broadcasts_S5000x1_S5000x64 j (ix2 (n0 := 5000) (j 0) (0 : Fin 1))
      (fun a => by match a with | ⟨0, _⟩ => rfl | ⟨1, _⟩ => rfl)]

/-- The next layer's pre-scaled entry: the normalised message times the factor once more. -/
theorem pay2_apply (x0 : Vec F S5000x64 .f32) (x1 x6 : Vec F S5000x1 .f32) (j : S5000x64.Idx) :
    k1_pay2 x0 x1 x6 j = FloatOps.mulf (FloatOps.mulf (x0 j) (x1 (ix2 (n0 := 5000) (j 0) (0 : Fin 1))))
      (x6 (ix2 (n0 := 5000) (j 0) (0 : Fin 1))) := by
  unfold k1_pay2
  show FloatOps.mulf (k1_pay1 x0 x1 j)
    (broadcastTo S5000x64 (shapeCast S5000x1 x6 shapeCasts_S5000x1_S5000x1) broadcasts_S5000x1_S5000x64 j) = _
  rw [pay1_apply, shapeCast_self,
    broadcastTo_apply x6 broadcasts_S5000x1_S5000x64 j (ix2 (n0 := 5000) (j 0) (0 : Fin 1))
      (fun a => by match a with | ⟨0, _⟩ => rfl | ⟨1, _⟩ => rfl)]

/-- The new running sum's entry: the old one plus the normalised message. -/
theorem pay3_apply (x0 : Vec F S5000x64 .f32) (x1 : Vec F S5000x1 .f32) (x11 : Vec F S5000x64 .f32) (j : S5000x64.Idx) :
    k1_pay3 x0 x1 x11 j = FloatOps.addf (x11 j) (FloatOps.mulf (x0 j) (x1 (ix2 (n0 := 5000) (j 0) (0 : Fin 1)))) := by
  unfold k1_pay3
  show FloatOps.addf (shapeCast S5000x64 x11 shapeCasts_S5000x64_S5000x64 j) (k1_pay1 x0 x1 j) = _
  rw [shapeCast_self, pay1_apply]

/-- All five windows sit at block row `t`, column block 0, and the block rows stay below 30. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = win1_3.index t (0 : Fin 2)
    ∧ win1_2.index t (1 : Fin 2) = 0
    ∧ win1_4.index t (0 : Fin 2) = win1_3.index t (0 : Fin 2)
    ∧ win1_4.index t (1 : Fin 2) = 0
    ∧ win1_3.index t (1 : Fin 2) = 0
    ∧ win1_3.index t (0 : Fin 2) ≤ 29 :=
  (by decide +kernel : ∀ t : Fin grid1.N, _)

/-- Every block row is some point's, for both outputs. -/
theorem idx_onto : ∀ q : Fin 30, ∃ t : Fin cfg1.N, win1_3.index t = ![q.val, 0] ∧ win1_4.index t = ![q.val, 0] :=
  (by decide +kernel : ∀ q : Fin 30, ∃ t : Fin grid1.N, win1_3.index t = ![q.val, 0] ∧ win1_4.index t = ![q.val, 0])

/-- What point `t` writes back to the first output is block `t` of the twice-scaled array. -/
theorem flushed3_eq (c : Dev nD) (t : Fin cfg1.N) :
    (dat1 V c).flushed 3 t = ((cfg1.win 3).blk t).view.read (Elt F) (scaleRowsTwice (V c main_v28) (V c main_v16)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k1_pay2 (iblk1 V c 0 t) (iblk1 V c 1 t) (iblk1 V c 1 t) j = _
  refine (pay2_apply (iblk1 V c 0 t) (iblk1 V c 1 t) (iblk1 V c 1 t) j).trans ?_
  show FloatOps.mulf (FloatOps.mulf (V c main_v28 (((cfg1.win 0).blk t).view.emb j))
        (V c main_v16 (((cfg1.win 1).blk t).view.emb (ix2 (n0 := 5000) (j 0) (0 : Fin 1)))))
      (V c main_v16 (((cfg1.win 1).blk t).view.emb (ix2 (n0 := 5000) (j 0) (0 : Fin 1))))
    = FloatOps.mulf (FloatOps.mulf (V c main_v28 (((cfg1.win 3).blk t).view.emb j))
        (V c main_v16 (ix2 (n0 := 150000) ((((cfg1.win 3).blk t).view.emb j) 0) (0 : Fin 1))))
      (V c main_v16 (ix2 (n0 := 150000) ((((cfg1.win 3).blk t).view.emb j) 0) (0 : Fin 1)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb (ix2 (n0 := 5000) (j 0) (0 : Fin 1))
      = ix2 (n0 := 150000) ((((cfg1.win 3).blk t).view.emb j) 0) (0 : Fin 1) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  rw [h0, h1]

/-- What point `t` writes back to the second output is block `t` of the running sum plus the scaled array. -/
theorem flushed4_eq (c : Dev nD) (t : Fin cfg1.N) :
    (dat1 V c).flushed 4 t = ((cfg1.win 4).blk t).view.read (Elt F) (addScaledRows (V c main_v28) (V c main_v16) (V c main_v17)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k1_pay3 (iblk1 V c 0 t) (iblk1 V c 1 t) (iblk1 V c 2 t) j = _
  refine (pay3_apply (iblk1 V c 0 t) (iblk1 V c 1 t) (iblk1 V c 2 t) j).trans ?_
  show FloatOps.addf (V c main_v17 (((cfg1.win 2).blk t).view.emb j))
      (FloatOps.mulf (V c main_v28 (((cfg1.win 0).blk t).view.emb j))
        (V c main_v16 (((cfg1.win 1).blk t).view.emb (ix2 (n0 := 5000) (j 0) (0 : Fin 1)))))
    = FloatOps.addf (V c main_v17 (((cfg1.win 4).blk t).view.emb j))
      (FloatOps.mulf (V c main_v28 (((cfg1.win 4).blk t).view.emb j))
        (V c main_v16 (ix2 (n0 := 150000) ((((cfg1.win 4).blk t).view.emb j) 0) (0 : Fin 1))))
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 64 + 1 * (j 1).val = win1_4.index t (1 : Fin 2) * 64 + 1 * (j 1).val; omega
  have h1 : ((cfg1.win 1).blk t).view.emb (ix2 (n0 := 5000) (j 0) (0 : Fin 1))
      = ix2 (n0 := 150000) ((((cfg1.win 4).blk t).view.emb j) 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  rw [h0, h2, h1]

/-- An index of the first output is in point `t`'s block iff each coordinate is in the block's range on its axis. -/
theorem mem_blk3 (t : Fin cfg1.N) (i : S150000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29_0).slice (win1_3.rect t)).set ↔ _
  rw [View.set_slice_whole, Rect.mem_set_unit]
  exact Iff.rfl

/-- The same for the second output. -/
theorem mem_blk4 (t : Fin cfg1.N) (i : S150000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v29_1).slice (win1_4.rect t)).set ↔ _
  rw [View.set_slice_whole, Rect.mem_set_unit]
  exact Iff.rfl

/-- Row `r` lies in the block of point `r / 5000`: the blocks tile the first output. -/
theorem cover3 (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  obtain ⟨t, ht, -⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The blocks tile the second output. -/
theorem cover4 (i : S150000x64.Idx) :
    ∃ t : Fin cfg1.N, (cfg1.win 4).flush t = true ∧ i ∈ ((cfg1.win 4).blk t).view.set := by
  have hi0 : (i 0).val < 150000 := (i 0).isLt
  have hi1 : (i 1).val < 64 := (i 1).isLt
  obtain ⟨t, -, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE FIRST OUTPUT after the launch: the aggregated messages times the node factor, twice. -/
theorem arr_next (c : Dev nD) : (dat1 V c).arrAt 3 cfg1.N = scaleRowsTwice (V c main_v28) (V c main_v16) :=
  (dat1 V c).arrAt_eq_of_cover 3 (scaleRowsTwice (V c main_v28) (V c main_v16)) (fun t _ => flushed3_eq V c t) cover3

/-- THE SECOND OUTPUT after the launch: the running sum plus the aggregated messages times the node factor. -/
theorem arr_sum (c : Dev nD) : (dat1 V c).arrAt 4 cfg1.N = addScaledRows (V c main_v28) (V c main_v16) (V c main_v17) :=
  (dat1 V c).arrAt_eq_of_cover 4 (addScaledRows (V c main_v28) (V c main_v16) (V c main_v17)) (fun t _ => flushed4_eq V c t) cover4

end Cert.KernelIdeal.LayerPass1

end
-- ==== Proof.LayerPass2.lean ====
/-
  Layer pass 2: one launch normalises the aggregated messages, prepares the next layer's pre-scaled array and
  adds the new layer embedding to the running sum.

  The launch walks 30 blocks of 5000 rows. At block t the body loads rows [5000 t, 5000 t + 5000) of the aggregated
  messages x : [150000, 64], of the factor column n : [150000, 1] and of the running sum a : [150000, 64]; with
  y = x · n (the column spread over the 64 features) it stores y · n into the first output and a + y into the
  second. So the two blocks written back at t are blocks t of the whole-array functions
      i ↦ (x i · n (i₀, 0)) · n (i₀, 0)      and      i ↦ a i + x i · n (i₀, 0),
  and the 30 blocks tile each output array. The statements are for any contents `V` the launch is entered from
  and for any float instance.
-/
import proofs.«146842_j69329362092551_1_alg».proof.Proof.ScalePass

noncomputable section

namespace Cert.KernelIdeal.LayerPass2

open Cert.KernelIdeal Cert.KernelIdeal.Gen Cert.KernelIdeal.NodeMaps Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The normalised message at an entry of the block: the loaded entry times the loaded factor of its row. -/
theorem pay1_apply (x0 : Vec F S5000x64 .f32) (x1 : Vec F S5000x1 .f32) (j : S5000x64.Idx) :
    k2_pay1 x0 x1 j = FloatOps.mulf (x0 j) (x1 (ix2 (n0 := 5000) (j 0) (0 : Fin 1))) := by
  unfold k2_pay1
  show FloatOps.mulf (shapeCast S5000x64 x0 shapeCasts_S5000x64_S5000x64 j)
    (broadcastTo S5000x64 (shapeCast S5000x1 x1 shapeCasts_S5000x1_S5000x1) broadcasts_S5000x1_S5000x64 j) = _
  rw [shapeCast_self, shapeCast_self,
    broadcastTo_apply x1 broadcasts_S5000x1_S5000x64 j (ix2 (n0 := 5000) (j 0) (0 : Fin 1))
      (fun a => by match a with | ⟨0, _⟩ => rfl | ⟨1, _⟩ => rfl)]

/-- The next layer's pre-scaled entry: the normalised message times the factor once more. -/
theorem pay2_apply (x0 : Vec F S5000x64 .f32) (x1 x6 : Vec F S5000x1 .f32) (j : S5000x64.Idx) :
    k2_pay2 x0 x1 x6 j = FloatOps.mulf (FloatOps.mulf (x0 j) (x1 (ix2 (n0 := 5000) (j 0) (0 : Fin 1))))
      (x6 (ix2 (n0 := 5000) (j 0) (0 : Fin 1))) := by
  unfold k2_pay2
  show FloatOps.mulf (k2_pay1 x0 x1 j)
    (broadcastTo S5000x64 (shapeCast S5000x1 x6 shapeCasts_S5000x1_S5000x1) broadcasts_S5000x1_S5000x64 j) = _
  rw [pay1_apply, shapeCast_self,
    broadcastTo_apply x6 broadcasts_S5000x1_S5000x64 j (ix2 (n0 := 5000) (j 0) (0 : Fin 1))
      (fun a => by match a with | ⟨0, _⟩ => rfl | ⟨1, _⟩ => rfl)]

/-- The new running sum's entry: the old one plus the normalised message. -/
theorem pay3_apply (x0 : Vec F S5000x64 .f32) (x1 : Vec F S5000x1 .f32) (x11 : Vec F S5000x64 .f32) (j : S5000x64.Idx) :
    k2_pay3 x0 x1 x11 j = FloatOps.addf (x11 j) (FloatOps.mulf (x0 j) (x1 (ix2 (n0 := 5000) (j 0) (0 : Fin 1)))) := by
  unfold k2_pay3
  show FloatOps.addf (shapeCast S5000x64 x11 shapeCasts_S5000x64_S5000x64 j) (k2_pay1 x0 x1 j) = _
  rw [shapeCast_self, pay1_apply]

/-- All five windows sit at block row `t`, column block 0, and the block rows stay below 30. -/
theorem idx_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_4.index t (0 : Fin 2) = win2_3.index t (0 : Fin 2)
    ∧ win2_4.index t (1 : Fin 2) = 0
    ∧ win2_3.index t (1 : Fin 2) = 0
    ∧ win2_3.index t (0 : Fin 2) ≤ 29 :=
  (by decide +kernel : ∀ t : Fin grid2.N, _)

/-- Every block row is some point's, for both outputs. -/
theorem idx_onto : ∀ q : Fin 30, ∃ t : Fin cfg2.N, win2_3.index t = ![q.val, 0] ∧ win2_4.index t = ![q.val, 0] :=
  (by decide +kernel : ∀ q : Fin 30, ∃ t : Fin grid2.N, win2_3.index t = ![q.val, 0] ∧ win2_4.index t = ![q.val, 0])

/-- What point `t` writes back to the first output is block `t` of the twice-scaled array. -/
theorem flushed3_eq (c : Dev nD) (t : Fin cfg2.N) :
    (dat2 V c).flushed 3 t = ((cfg2.win 3).blk t).view.read (Elt F) (scaleRowsTwice (V c main_v39) (V c main_v16)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k2_pay2 (iblk2 V c 0 t) (iblk2 V c 1 t) (iblk2 V c 1 t) j = _
  refine (pay2_apply (iblk2 V c 0 t) (iblk2 V c 1 t) (iblk2 V c 1 t) j).trans ?_
  show FloatOps.mulf (FloatOps.mulf (V c main_v39 (((cfg2.win 0).blk t).view.emb j))
        (V c main_v16 (((cfg2.win 1).blk t).view.emb (ix2 (n0 := 5000) (j 0) (0 : Fin 1)))))
      (V c main_v16 (((cfg2.win 1).blk t).view.emb (ix2 (n0 := 5000) (j 0) (0 : Fin 1))))
    = FloatOps.mulf (FloatOps.mulf (V c main_v39 (((cfg2.win 3).blk t).view.emb j))
        (V c main_v16 (ix2 (n0 := 150000) ((((cfg2.win 3).blk t).view.emb j) 0) (0 : Fin 1))))
      (V c main_v16 (ix2 (n0 := 150000) ((((cfg2.win 3).blk t).view.emb j) 0) (0 : Fin 1)))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (n0 := 5000) (j 0) (0 : Fin 1))
      = ix2 (n0 := 150000) ((((cfg2.win 3).blk t).view.emb j) 0) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  rw [h0, h1]

/-- What point `t` writes back to the second output is block `t` of the running sum plus the scaled array. -/
theorem flushed4_eq (c : Dev nD) (t : Fin cfg2.N) :
    (dat2 V c).flushed 4 t = ((cfg2.win 4).blk t).view.read (Elt F) (addScaledRows (V c main_v39) (V c main_v16) (V c main_v29_1)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k2_pay3 (iblk2 V c 0 t) (iblk2 V c 1 t) (iblk2 V c 2 t) j = _
  refine (pay3_apply (iblk2 V c 0 t) (iblk2 V c 1 t) (iblk2 V c 2 t) j).trans ?_
  show FloatOps.addf (V c main_v29_1 (((cfg2.win 2).blk t).view.emb j))
      (FloatOps.mulf (V c main_v39 (((cfg2.win 0).blk t).view.emb j))
        (V c main_v16 (((cfg2.win 1).blk t).view.emb (ix2 (n0 := 5000) (j 0) (0 : Fin 1)))))
    = FloatOps.addf (V c main_v29_1 (((cfg2.win 4).blk t).view.emb j))
      (FloatOps.mulf (V c main_v39 (((cfg2.win 4).blk t).view.emb j))
        (V c main_v16 (ix2 (n0 := 150000) ((((cfg2.win 4).blk t).view.emb j) 0) (0 : Fin 1))))
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  have h2 : ((cfg2.win 2).blk t).view.emb j = ((cfg2.win 4).blk t).view.emb j := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 64 + 1 * (j 1).val = win2_4.index t (1 : Fin 2) * 64 + 1 * (j 1).val; omega
  have h1 : ((cfg2.win 1).blk t).view.emb (ix2 (n0 := 5000) (j 0) (0 : Fin 1))
      = ix2 (n0 := 150000) ((((cfg2.win 4).blk t).view.emb j) 0) (0 : Fin 1) := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  rw [h0, h2, h1]

/-- An index of the first output is in point `t`'s block iff each coordinate is in the block's range on its axis. -/
theorem mem_blk3 (t : Fin cfg2.N) (i : S150000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v40_0).slice (win2_3.rect t)).set ↔ _
  rw [View.set_slice_whole, Rect.mem_set_unit]
  exact Iff.rfl

/-- The same for the second output. -/
theorem mem_blk4 (t : Fin cfg2.N) (i : S150000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v40_1).slice (win2_4.rect t)).set ↔ _
  rw [View.set_slice_whole, Rect.mem_set_unit]
  exact Iff.rfl

/-- Row `r` lies in the block of point `r / 5000`: the blocks tile the first output. -/
theorem cover3 (i : S150000x64.Idx) :
    ∃ t : Fin cfg2.N, (cfg2.win 3).flush t = true ∧ i ∈ ((cfg2.win 3).blk t).view.set := by
  have hi0 : (i 0).val < 150000 := (i 0).isLt
  have hi1 : (i 1).val < 64 := (i 1).isLt
  obtain ⟨t, ht, -⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The blocks tile the second output. -/
theorem cover4 (i : S150000x64.Idx) :
    ∃ t : Fin cfg2.N, (cfg2.win 4).flush t = true ∧ i ∈ ((cfg2.win 4).blk t).view.set := by
  have hi0 : (i 0).val < 150000 := (i 0).isLt
  have hi1 : (i 1).val < 64 := (i 1).isLt
  obtain ⟨t, -, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- THE FIRST OUTPUT after the launch: the aggregated messages times the node factor, twice. -/
theorem arr_next (c : Dev nD) : (dat2 V c).arrAt 3 cfg2.N = scaleRowsTwice (V c main_v39) (V c main_v16) :=
  (dat2 V c).arrAt_eq_of_cover 3 (scaleRowsTwice (V c main_v39) (V c main_v16)) (fun t _ => flushed3_eq V c t) cover3

/-- THE SECOND OUTPUT after the launch: the running sum plus the aggregated messages times the node factor. -/
theorem arr_sum (c : Dev nD) : (dat2 V c).arrAt 4 cfg2.N = addScaledRows (V c main_v39) (V c main_v16) (V c main_v29_1) :=
  (dat2 V c).arrAt_eq_of_cover 4 (addScaledRows (V c main_v39) (V c main_v16) (V c main_v29_1)) (fun t _ => flushed4_eq V c t) cover4

end Cert.KernelIdeal.LayerPass2

end
-- ==== Proof.LayerPass3.lean ====
/-
  Layer pass 3: one launch normalises the aggregated messages, prepares the next layer's pre-scaled array and
  adds the new layer embedding to the running sum.

  The launch walks 30 blocks of 5000 rows. At block t the body loads rows [5000 t, 5000 t + 5000) of the aggregated
  messages x : [150000, 64], of the factor column n : [150000, 1] and of the running sum a : [150000, 64]; with
  y = x · n (the column spread over the 64 features) it stores y · n into the first output and a + y into the
  second. So the two blocks written back at t are blocks t of the whole-array functions
      i ↦ (x i · n (i₀, 0)) · n (i₀, 0)      and      i ↦ a i + x i · n (i₀, 0),
  and the 30 blocks tile each output array. The statements are for any contents `V` the launch is entered from
  and for any float instance.
-/
import proofs.«146842_j69329362092551_1_alg».proof.Proof.ScalePass

noncomputable section

namespace Cert.KernelIdeal.LayerPass3

open Cert.KernelIdeal Cert.KernelIdeal.Gen Cert.KernelIdeal.NodeMaps Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The normalised message at an entry of the block: the loaded entry times the loaded factor of its row. -/
theorem pay1_apply (x0 : Vec F S5000x64 .f32) (x1 : Vec F S5000x1 .f32) (j : S5000x64.Idx) :
    k3_pay1 x0 x1 j = FloatOps.mulf (x0 j) (x1 (ix2 (n0 := 5000) (j 0) (0 : Fin 1))) := by
  unfold k3_pay1
  show FloatOps.mulf (shapeCast S5000x64 x0 shapeCasts_S5000x64_S5000x64 j)
    (broadcastTo S5000x64 (shapeCast S5000x1 x1 shapeCasts_S5000x1_S5000x1) broadcasts_S5000x1_S5000x64 j) = _
  rw [shapeCast_self, shapeCast_self,
    broadcastTo_apply x1 broadcasts_S5000x1_S5000x64 j (ix2 (n0 := 5000) (j 0) (0 : Fin 1))
      (fun a => by match a with | ⟨0, _⟩ => rfl | ⟨1, _⟩ => rfl)]

/-- The next layer's pre-scaled entry: the normalised message times the factor once more. -/
theorem pay2_apply (x0 : Vec F S5000x64 .f32) (x1 x6 : Vec F S5000x1 .f32) (j : S5000x64.Idx) :
    k3_pay2 x0 x1 x6 j = FloatOps.mulf (FloatOps.mulf (x0 j) (x1 (ix2 (n0 := 5000) (j 0) (0 : Fin 1))))
      (x6 (ix2 (n0 := 5000) (j 0) (0 : Fin 1))) := by
  unfold k3_pay2
  show FloatOps.mulf (k3_pay1 x0 x1 j)
    (broadcastTo S5000x64 (shapeCast S5000x1 x6 shapeCasts_S5000x1_S5000x1) broadcasts_S5000x1_S5000x64 j) = _
  rw [pay1_apply, shapeCast_self,
    broadcastTo_apply x6 broadcasts_S5000x1_S5000x64 j (ix2 (n0 := 5000) (j 0) (0 : Fin 1))
      (fun a => by match a with | ⟨0, _⟩ => rfl | ⟨1, _⟩ => rfl)]

/-- The new running sum's entry: the old one plus the normalised message. -/
theorem pay3_apply (x0 : Vec F S5000x64 .f32) (x1 : Vec F S5000x1 .f32) (x11 : Vec F S5000x64 .f32) (j : S5000x64.Idx) :
    k3_pay3 x0 x1 x11 j = FloatOps.addf (x11 j) (FloatOps.mulf (x0 j) (x1 (ix2 (n0 := 5000) (j 0) (0 : Fin 1)))) := by
  unfold k3_pay3
  show FloatOps.addf (shapeCast S5000x64 x11 shapeCasts_S5000x64_S5000x64 j) (k3_pay1 x0 x1 j) = _
  rw [shapeCast_self, pay1_apply]

/-- All five windows sit at block row `t`, column block 0, and the block rows stay below 30. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = win3_3.index t (0 : Fin 2)
    ∧ win3_2.index t (1 : Fin 2) = 0
    ∧ win3_4.index t (0 : Fin 2) = win3_3.index t (0 : Fin 2)
    ∧ win3_4.index t (1 : Fin 2) = 0
    ∧ win3_3.index t (1 : Fin 2) = 0
    ∧ win3_3.index t (0 : Fin 2) ≤ 29 :=
  (by decide +kernel : ∀ t : Fin grid3.N, _)

/-- Every block row is some point's, for both outputs. -/
theorem idx_onto : ∀ q : Fin 30, ∃ t : Fin cfg3.N, win3_3.index t = ![q.val, 0] ∧ win3_4.index t = ![q.val, 0] :=
  (by decide +kernel : ∀ q : Fin 30, ∃ t : Fin grid3.N, win3_3.index t = ![q.val, 0] ∧ win3_4.index t = ![q.val, 0])

/-- What point `t` writes back to the first output is block `t` of the twice-scaled array. -/
theorem flushed3_eq (c : Dev nD) (t : Fin cfg3.N) :
    (dat3 V c).flushed 3 t = ((cfg3.win 3).blk t).view.read (Elt F) (scaleRowsTwice (V c main_v50) (V c main_v16)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k3_pay2 (iblk3 V c 0 t) (iblk3 V c 1 t) (iblk3 V c 1 t) j = _
  refine (pay2_apply (iblk3 V c 0 t) (iblk3 V c 1 t) (iblk3 V c 1 t) j).trans ?_
  show FloatOps.mulf (FloatOps.mulf (V c main_v50 (((cfg3.win 0).blk t).view.emb j))
        (V c main_v16 (((cfg3.win 1).blk t).view.emb (ix2 (n0 := 5000) (j 0) (0 : Fin 1)))))
      (V c main_v16 (((cfg3.win 1).blk t).view.emb (ix2 (n0 := 5000) (j 0) (0 : Fin 1))))
    = FloatOps.mulf (FloatOps.mulf (V c main_v50 (((cfg3.win 3).blk t).view.emb j))
        (V c main_v16 (ix2 (n0 := 150000) ((((cfg3.win 3).blk t).view.emb j) 0) (0 : Fin 1))))
      (V c main_v16 (ix2 (n0 := 150000) ((((cfg3.win 3).blk t).view.emb j) 0) (0 : Fin 1)))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb (ix2 (n0 := 5000) (j 0) (0 : Fin 1))
      = ix2 (n0 := 150000) ((((cfg3.win 3).blk t).view.emb j) 0) (0 : Fin 1) := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  rw [h0, h1]

/-- What point `t` writes back to the second output is block `t` of the running sum plus the scaled array. -/
theorem flushed4_eq (c : Dev nD) (t : Fin cfg3.N) :
    (dat3 V c).flushed 4 t = ((cfg3.win 4).blk t).view.read (Elt F) (addScaledRows (V c main_v50) (V c main_v16) (V c main_v40_1)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz]
  obtain ⟨e0, e1, e2, e3, e4, e5, e6, e7, e8, e9⟩ := idx_facts t
  funext j
  show k3_pay3 (iblk3 V c 0 t) (iblk3 V c 1 t) (iblk3 V c 2 t) j = _
  refine (pay3_apply (iblk3 V c 0 t) (iblk3 V c 1 t) (iblk3 V c 2 t) j).trans ?_
  show FloatOps.addf (V c main_v40_1 (((cfg3.win 2).blk t).view.emb j))
      (FloatOps.mulf (V c main_v50 (((cfg3.win 0).blk t).view.emb j))
        (V c main_v16 (((cfg3.win 1).blk t).view.emb (ix2 (n0 := 5000) (j 0) (0 : Fin 1)))))
    = FloatOps.addf (V c main_v40_1 (((cfg3.win 4).blk t).view.emb j))
      (FloatOps.mulf (V c main_v50 (((cfg3.win 4).blk t).view.emb j))
        (V c main_v16 (ix2 (n0 := 150000) ((((cfg3.win 4).blk t).view.emb j) 0) (0 : Fin 1))))
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 64 + 1 * (j 1).val = win3_4.index t (1 : Fin 2) * 64 + 1 * (j 1).val; omega
  have h1 : ((cfg3.win 1).blk t).view.emb (ix2 (n0 := 5000) (j 0) (0 : Fin 1))
      = ix2 (n0 := 150000) ((((cfg3.win 4).blk t).view.emb j) 0) (0 : Fin 1) := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * 0 = 0; omega
  rw [h0, h2, h1]

/-- An index of the first output is in point `t`'s block iff each coordinate is in the block's range on its axis. -/
theorem mem_blk3 (t : Fin cfg3.N) (i : S150000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v51_0).slice (win3_3.rect t)).set ↔ _
  rw [View.set_slice_whole, Rect.mem_set_unit]
  exact Iff.rfl

/-- The same for the second output. -/
theorem mem_blk4 (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v51_1).slice (win3_4.rect t)).set ↔ _
  rw [View.set_slice_whole, Rect.mem_set_unit]
  exact Iff.rfl

/-- Row `r` lies in the block of point `r / 5000`: the blocks tile the first output. -/
theorem cover3 (i : S150000x64.Idx) :
    ∃ t : Fin cfg3.N, (cfg3.win 3).flush t = true ∧ i ∈ ((cfg3.win 3).blk t).view.set := by
  have hi0 : (i 0).val < 150000 := (i 0).isLt
  have hi1 : (i 1).val < 64 := (i 1).isLt
  obtain ⟨t, ht, -⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The blocks tile the second output. -/
theorem cover4 (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  obtain ⟨t, -, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- THE FIRST OUTPUT after the launch: the aggregated messages times the node factor, twice. -/
theorem arr_next (c : Dev nD) : (dat3 V c).arrAt 3 cfg3.N = scaleRowsTwice (V c main_v50) (V c main_v16) :=
  (dat3 V c).arrAt_eq_of_cover 3 (scaleRowsTwice (V c main_v50) (V c main_v16)) (fun t _ => flushed3_eq V c t) cover3

/-- THE SECOND OUTPUT after the launch: the running sum plus the aggregated messages times the node factor. -/
theorem arr_sum (c : Dev nD) : (dat3 V c).arrAt 4 cfg3.N = addScaledRows (V c main_v50) (V c main_v16) (V c main_v40_1) :=
  (dat3 V c).arrAt_eq_of_cover 4 (addScaledRows (V c main_v50) (V c main_v16) (V c main_v40_1)) (fun t _ => flushed4_eq V c t) cover4

end Cert.KernelIdeal.LayerPass3

end
-- ==== Proof.MeanPass.lean ====
/-
  The mean pass: the last launch multiplies the sum of the four stacked embeddings by the float 0.25.

  The launch walks 30 blocks of 5000 rows; at block t the body loads rows [5000 t, 5000 t + 5000) of the running sum
  a : [150000, 64] and stores a · 0.25 (the constant splat over the block). So block t written back is block t of
  i ↦ a i · 0.25, and the 30 blocks tile the output array. For any entry contents `V` and any float instance.
-/
import proofs.«146842_j69329362092551_1_alg».proof.Proof.ScalePass

noncomputable section

namespace Cert.KernelIdeal.MeanPass

open Cert.KernelIdeal Cert.KernelIdeal.Gen Cert.KernelIdeal.NodeMaps Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The body's product at an entry of the block: the loaded entry times 0.25. -/
theorem pay_apply (x0 : Vec F S5000x64 .f32) (j : S5000x64.Idx) :
    k4_pay1 x0 j = FloatOps.mulf (x0 j) (Scalar.ofBits .f32 0x3E800000#32) := by
  unfold k4_pay1
  show FloatOps.mulf (shapeCast S5000x64 x0 shapeCasts_S5000x64_S5000x64 j)
    (broadcast S5000x64 (Scalar.ofBits (F := F) .f32 0x3E800000#32) j) = _
  rw [shapeCast_self]
  rfl

/-- Both windows sit at block row `t`, column block 0, and the block rows stay below 30. -/
theorem idx_facts : ∀ t : Fin cfg4.N, win4_0.index t (0 : Fin 2) = win4_1.index t (0 : Fin 2)
    ∧ win4_0.index t (1 : Fin 2) = 0
    ∧ win4_1.index t (1 : Fin 2) = 0
    ∧ win4_1.index t (0 : Fin 2) ≤ 29 :=
  (by decide +kernel : ∀ t : Fin grid4.N, _)

/-- Every block row is some point's. -/
theorem idx_onto : ∀ q : Fin 30, ∃ t : Fin cfg4.N, win4_1.index t = ![q.val, 0] :=
  (by decide +kernel : ∀ q : Fin 30, ∃ t : Fin grid4.N, win4_1.index t = ![q.val, 0])

/-- What point `t` writes back is block `t` of the quartered array. -/
theorem flushed_eq (c : Dev nD) (t : Fin cfg4.N) :
    (dat4 V c).flushed 1 t = ((cfg4.win 1).blk t).view.read (Elt F) (quarter (V c main_v51_1)) := by
  show (cfg4.win 1).cut (grid4.coords t) ((dat4 V c).after 1 t) = _
  rw [after4_1]
  unfold out4_1
  rw [View.canon_unit_zero hz]
  simp only [View.ld_unit_zero (S := S5000x64) hz]
  obtain ⟨e0, e1, e2, e3⟩ := idx_facts t
  funext j
  show k4_pay1 (iblk4 V c 0 t) j = _
  refine (pay_apply (iblk4 V c 0 t) j).trans ?_
  show FloatOps.mulf (V c main_v51_1 (((cfg4.win 0).blk t).view.emb j)) (Scalar.ofBits .f32 0x3E800000#32)
    = FloatOps.mulf (V c main_v51_1 (((cfg4.win 1).blk t).view.emb j)) (Scalar.ofBits .f32 0x3E800000#32)
  have h0 : ((cfg4.win 0).blk t).view.emb j = ((cfg4.win 1).blk t).view.emb j := by
    funext a; apply Fin.ext
    match a with
    | ⟨0, _⟩ => show win4_0.index t (0 : Fin 2) * 5000 + 1 * (j 0).val = win4_1.index t (0 : Fin 2) * 5000 + 1 * (j 0).val; omega
    | ⟨1, _⟩ => show win4_0.index t (1 : Fin 2) * 64 + 1 * (j 1).val = win4_1.index t (1 : Fin 2) * 64 + 1 * (j 1).val; omega
  rw [h0]

/-- An index of the array is in point `t`'s block iff each coordinate is in the block's range on its axis. -/
theorem mem_blk (t : Fin cfg4.N) (i : S150000x64.Idx) :
    i ∈ ((cfg4.win 1).blk t).view.set ↔ ∀ a : Fin 2, win4_1.index t a * S5000x64.size a ≤ (i a).val ∧ (i a).val < win4_1.index t a * S5000x64.size a + S5000x64.size a := by
  show i ∈ ((View.whole main_v52).slice (win4_1.rect t)).set ↔ _
  rw [View.set_slice_whole, Rect.mem_set_unit]
  exact Iff.rfl

/-- Row `r` lies in the block of point `r / 5000`: the blocks tile the array. -/
theorem cover (i : S150000x64.Idx) :
    ∃ t : Fin cfg4.N, (cfg4.win 1).flush t = true ∧ i ∈ ((cfg4.win 1).blk t).view.set := by
  have hi0 : (i 0).val < 150000 := (i 0).isLt
  have hi1 : (i 1).val < 64 := (i 1).isLt
  obtain ⟨t, ht⟩ := idx_onto ⟨(i 0).val / 5000, by omega⟩
  have q0 : win4_1.index t (0 : Fin 2) = (i 0).val / 5000 := congrFun ht 0
  have q1 : win4_1.index t (1 : Fin 2) = 0 := congrFun ht 1
  refine ⟨t, flush4_1 t, ?_⟩
  rw [mem_blk]
  intro a
  match a with
  | ⟨0, _⟩ => show win4_1.index t (0 : Fin 2) * 5000 ≤ (i 0).val ∧ (i 0).val < win4_1.index t (0 : Fin 2) * 5000 + 5000; omega
  | ⟨1, _⟩ => show win4_1.index t (1 : Fin 2) * 64 ≤ (i 1).val ∧ (i 1).val < win4_1.index t (1 : Fin 2) * 64 + 64; omega

/-- THE RESULT ARRAY after the launch: the running sum times 0.25. -/
theorem arr_mean (c : Dev nD) : (dat4 V c).arrAt 1 cfg4.N = quarter (V c main_v51_1) :=
  (dat4 V c).arrAt_eq_of_cover 1 (quarter (V c main_v51_1)) (fun t _ => flushed_eq V c t) cover

end Cert.KernelIdeal.MeanPass

end
-- ==== Proof.KernelFold.lean ====
/-
  The kernel program's result as ONE function of the four argument arrays.

  Host maps (plain operations of the program's @main, named once and never opened again):
    sources, targets   the 4,000,000 directed edges' end points (users, then items shifted by 100000, and the reverse);
    wrapped            an index column with negative entries wrapped by +150000, as the row gathers read it;
    normCol            the per-node factor  1/sqrt(max(deg,1))  (0 where deg = 0), deg counted over the targets, as a column;
    nodes              the user rows above the item rows;
    aggregate g        gather the rows of g at the edges' sources, add them into the rows of the edges' targets.
  The program: g₀ = nodes · n;  for each of three layers  x = aggregate g,  the next g = (x · n) · n,
  the sum grows by x · n;  the result is the sum · 0.25  (n = normCol spread over the features).

  The contents of the live buffers are followed through the eleven boundaries of the generated frame: a host stretch
  rewrites the buffers its operations write and keeps the rest; a launch replaces its output arrays by the pass's
  whole-array function of its inputs (ScalePass, LayerPass1–3, MeanPass) and keeps the rest.
-/
import proofs.«146842_j69329362092551_1_alg».proof.Proof.ScalePass
import proofs.«146842_j69329362092551_1_alg».proof.Proof.LayerPass1
import proofs.«146842_j69329362092551_1_alg».proof.Proof.LayerPass2
import proofs.«146842_j69329362092551_1_alg».proof.Proof.LayerPass3
import proofs.«146842_j69329362092551_1_alg».proof.Proof.MeanPass
import Idealize.ShloMosaic.Lib.StableHlo.Run

set_option maxRecDepth 16384

noncomputable section

namespace Cert.KernelIdeal.HostMaps

open Cert.KernelIdeal Cert.KernelIdeal.NodeMaps Idealize.ShloMosaic
open Cert.KernelIdeal.Facts₀ Cert.KernelIdeal.Facts

variable {F : FTy → Type} [FloatOps F]

/-- The edges' sources: the users, then the items shifted by 100000. -/
def sources (a2 a3 : (⟨S2000000, .i32⟩ : BufTy).Contents (Elt F)) : (⟨S4000000, .i32⟩ : BufTy).Contents (Elt F) :=
  concatenate S4000000 0 [⟨S2000000, a2⟩, ⟨S2000000, addi a3 (broadcastInDim S2000000 ![] bcast_S_S2000000 (constantI S_ 32 100000#32))⟩] concatenates_S2000000_S2000000_S4000000_d0

/-- The edges' targets: the items shifted by 100000, then the users. -/
def targets (a2 a3 : (⟨S2000000, .i32⟩ : BufTy).Contents (Elt F)) : (⟨S4000000, .i32⟩ : BufTy).Contents (Elt F) :=
  concatenate S4000000 0 [⟨S2000000, addi a3 (broadcastInDim S2000000 ![] bcast_S_S2000000 (constantI S_ 32 100000#32))⟩, ⟨S2000000, a2⟩] concatenates_S2000000_S2000000_S4000000_d0

/-- An index list as a column. -/
def column (d : (⟨S4000000, .i32⟩ : BufTy).Contents (Elt F)) : (⟨S4000000x1, .i32⟩ : BufTy).Contents (Elt F) :=
  broadcastInDim S4000000x1 ![0] bcast_S4000000_S4000000x1_0 d

/-- An index list with its negative entries wrapped by +150000, as a column. -/
def wrapped (s : (⟨S4000000, .i32⟩ : BufTy).Contents (Elt F)) : (⟨S4000000x1, .i32⟩ : BufTy).Contents (Elt F) :=
  broadcastInDim S4000000x1 ![0] bcast_S4000000_S4000000x1_0
    (select (cmpi .slt s (broadcastInDim S4000000 ![] bcast_S_S4000000 (constantI S_ 32 0#32)))
      (addi s (broadcastInDim S4000000 ![] bcast_S_S4000000 (constantI S_ 32 150000#32))) s)

/-- The number of edges arriving at each node. -/
def degree (d : (⟨S4000000, .i32⟩ : BufTy).Contents (Elt F)) : (⟨S150000, .f32⟩ : BufTy).Contents (Elt F) :=
  Host.scatterAdd scatter_S150000_S4000000x1_S4000000_n_0_0_1
    (broadcastInDim S150000 ![] bcast_S_S150000 (constant S_ .f32 0x00000000#32))
    (broadcastInDim S4000000x1 ![0] bcast_S4000000_S4000000x1_0 d)
    (broadcastInDim S4000000 ![] bcast_S_S4000000 (constant S_ .f32 0x3F800000#32))

/-- The per-node factor: the reciprocal square root of the degree (taken at least 1), and 0 where no edge arrives. -/
def norm (d : (⟨S4000000, .i32⟩ : BufTy).Contents (Elt F)) : (⟨S150000, .f32⟩ : BufTy).Contents (Elt F) :=
  select (cmpf .ogt (degree (F := F) d) (broadcastInDim S150000 ![] bcast_S_S150000 (constant S_ .f32 0x00000000#32)))
    (Host.rsqrt (maximumf (degree (F := F) d) (broadcastInDim S150000 ![] bcast_S_S150000 (constant S_ .f32 0x3F800000#32))))
    (broadcastInDim S150000 ![] bcast_S_S150000 (id (constant S_ .f32 0x00000000#32)))

/-- The per-node factor as a column. -/
def normCol (d : (⟨S4000000, .i32⟩ : BufTy).Contents (Elt F)) : (⟨S150000x1, .f32⟩ : BufTy).Contents (Elt F) :=
  broadcastInDim S150000x1 ![0] bcast_S150000_S150000x1_0 (norm (F := F) d)

/-- The node array: the user rows above the item rows. -/
def nodes (a0 : (⟨S100000x64, .f32⟩ : BufTy).Contents (Elt F)) (a1 : (⟨S50000x64, .f32⟩ : BufTy).Contents (Elt F)) :
    (⟨S150000x64, .f32⟩ : BufTy).Contents (Elt F) :=
  concatenate S150000x64 0 [⟨S100000x64, a0⟩, ⟨S50000x64, a1⟩] concatenates_S100000x64_S50000x64_S150000x64_d0

/-- Gather the rows of `g` at the edges' sources and add them into the rows of the edges' targets. -/
def aggregate (g : (⟨S150000x64, .f32⟩ : BufTy).Contents (Elt F)) (s d : (⟨S4000000, .i32⟩ : BufTy).Contents (Elt F)) :
    (⟨S150000x64, .f32⟩ : BufTy).Contents (Elt F) :=
  Host.scatterAdd scatter_S150000x64_S4000000x1_S4000000x64_1_0_0_1
    (broadcastInDim S150000x64 ![] bcast_S_S150000x64 (constant S_ .f32 0x00000000#32))
    (broadcastInDim S4000000x1 ![0] bcast_S4000000_S4000000x1_0 d)
    (Host.gather gather_S150000x64_S4000000x1_S4000000x64_1_0_n_n_0_1_164 g (wrapped (F := F) s))

/-- The kernel program's result as a function of its four argument arrays. -/
def kernelOut (a0 : (⟨S100000x64, .f32⟩ : BufTy).Contents (Elt F)) (a1 : (⟨S50000x64, .f32⟩ : BufTy).Contents (Elt F))
    (a2 a3 : (⟨S2000000, .i32⟩ : BufTy).Contents (Elt F)) : (⟨S150000x64, .f32⟩ : BufTy).Contents (Elt F) :=
  let s := sources (F := F) a2 a3
  let d := targets (F := F) a2 a3
  let n := normCol (F := F) d
  let h0 := nodes (F := F) a0 a1
  let x1 := aggregate (F := F) (scaleRows h0 n) s d
  let x2 := aggregate (F := F) (scaleRowsTwice x1 n) s d
  let x3 := aggregate (F := F) (scaleRowsTwice x2 n) s d
  quarter (addScaledRows x3 n (addScaledRows x2 n (addScaledRows x1 n h0)))

end Cert.KernelIdeal.HostMaps

namespace Cert.KernelIdeal.Fold

open Cert.KernelIdeal Cert.KernelIdeal.Gen Cert.KernelIdeal.NodeMaps Cert.KernelIdeal.HostMaps
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A buffer that no operation of a host stretch writes: each operation's one written buffer is another reference. -/
macro "unwritten" : tactic => `(tactic| (
  refine List.forall_iff_forall_mem.mp ?_
  simp only [hostOps0, hostOps0_1, hostOps0_2, hostOps1, hostOps2, hostOps3, List.Forall, StableHlo.nullary_writes,
    StableHlo.unary_writes, StableHlo.binary_writes, StableHlo.ternary_writes, Finset.mem_singleton]
  repeat' apply And.intro
  all_goals exact StableHlo.devRef_ne_of_ne (by decide)))

/-! ## Before the first launch -/

set_option maxHeartbeats 4000000 in
theorem W3_v2 : W3 m ρ c (Proc.devRef .tc main_v2) = sources (F := F) (m ((c : Thread nD τ).loc main_arg2)) (m ((c : Thread nD τ).loc main_arg3)) := by
  show StableHlo.after hostOps0_2 (StableHlo.after hostOps0_1 (StableHlo.after hostOps0 (W0 m ρ c))) (Proc.devRef .tc main_v2) = _
  dsimp only [hostOps0, hostOps0_1, hostOps0_2]
  after_results_simp
  rfl

set_option maxHeartbeats 4000000 in
theorem W3_v5 : W3 m ρ c (Proc.devRef .tc main_v5) = targets (F := F) (m ((c : Thread nD τ).loc main_arg2)) (m ((c : Thread nD τ).loc main_arg3)) := by
  show StableHlo.after hostOps0_2 (StableHlo.after hostOps0_1 (StableHlo.after hostOps0 (W0 m ρ c))) (Proc.devRef .tc main_v5) = _
  dsimp only [hostOps0, hostOps0_1, hostOps0_2]
  after_results_simp
  rfl

set_option maxHeartbeats 4000000 in
theorem W3_v16 : W3 m ρ c (Proc.devRef .tc main_v16) = normCol (F := F) (targets (F := F) (m ((c : Thread nD τ).loc main_arg2)) (m ((c : Thread nD τ).loc main_arg3))) := by
  show StableHlo.after hostOps0_2 (StableHlo.after hostOps0_1 (StableHlo.after hostOps0 (W0 m ρ c))) (Proc.devRef .tc main_v16) = _
  dsimp only [hostOps0, hostOps0_1, hostOps0_2]
  after_results_simp
  rfl

set_option maxHeartbeats 4000000 in
theorem W3_v17 : W3 m ρ c (Proc.devRef .tc main_v17) = nodes (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v17) = _
  dsimp only [hostOps0, hostOps0_1, hostOps0_2]
  after_results_simp
  rfl

/-! ## The stages of the program, as functions of the launch memory -/

/-- The edges' sources, the edges' targets, the factor column and the node array of the launch memory. -/
abbrev src : (⟨S4000000, .i32⟩ : BufTy).Contents (Elt F) := sources (F := F) (m ((c : Thread nD τ).loc main_arg2)) (m ((c : Thread nD τ).loc main_arg3))
abbrev dst : (⟨S4000000, .i32⟩ : BufTy).Contents (Elt F) := targets (F := F) (m ((c : Thread nD τ).loc main_arg2)) (m ((c : Thread nD τ).loc main_arg3))
abbrev ncol : (⟨S150000x1, .f32⟩ : BufTy).Contents (Elt F) := normCol (F := F) (dst m c)
abbrev h0 : (⟨S150000x64, .f32⟩ : BufTy).Contents (Elt F) := nodes (F := F) (m ((c : Thread nD τ).loc main_arg0)) (m ((c : Thread nD τ).loc main_arg1))
/-- The pre-scaled node array, and per layer the aggregated messages, the next pre-scaled array and the running sum. -/
def g0 : (⟨S150000x64, .f32⟩ : BufTy).Contents (Elt F) := scaleRows (h0 m c) (ncol m c)
def x1 : (⟨S150000x64, .f32⟩ : BufTy).Contents (Elt F) := aggregate (F := F) (g0 m c) (src m c) (dst m c)
def g1 : (⟨S150000x64, .f32⟩ : BufTy).Contents (Elt F) := scaleRowsTwice (x1 m c) (ncol m c)
def s1 : (⟨S150000x64, .f32⟩ : BufTy).Contents (Elt F) := addScaledRows (x1 m c) (ncol m c) (h0 m c)
def x2 : (⟨S150000x64, .f32⟩ : BufTy).Contents (Elt F) := aggregate (F := F) (g1 m c) (src m c) (dst m c)
def g2 : (⟨S150000x64, .f32⟩ : BufTy).Contents (Elt F) := scaleRowsTwice (x2 m c) (ncol m c)
def s2 : (⟨S150000x64, .f32⟩ : BufTy).Contents (Elt F) := addScaledRows (x2 m c) (ncol m c) (s1 m c)
def x3 : (⟨S150000x64, .f32⟩ : BufTy).Contents (Elt F) := aggregate (F := F) (g2 m c) (src m c) (dst m c)
def s3 : (⟨S150000x64, .f32⟩ : BufTy).Contents (Elt F) := addScaledRows (x3 m c) (ncol m c) (s2 m c)

/-- The last running sum times 0.25 is the program's result function of the arguments. -/
theorem quarter_s3 : quarter (s3 m c) = kernelOut (F := F) (m ((c : Thread nD τ).loc main_arg0)) (m ((c : Thread nD τ).loc main_arg1)) (m ((c : Thread nD τ).loc main_arg2)) (m ((c : Thread nD τ).loc main_arg3)) := rfl

/-! ## After the pre-scaling launch -/

theorem W4_v2 : W4 m ρ c (Proc.devRef .tc main_v2) = src m c :=
  (W4_of_ne m ρ c main_v2 (by decide)).trans (W3_v2 m ρ c)

theorem W4_v5 : W4 m ρ c (Proc.devRef .tc main_v5) = dst m c :=
  (W4_of_ne m ρ c main_v5 (by decide)).trans (W3_v5 m ρ c)

theorem W4_v16 : W4 m ρ c (Proc.devRef .tc main_v16) = ncol m c :=
  (W4_arr m ρ c 1).trans (((dat0 (V3 m ρ) c).arrAt_in 1 rfl _).trans ((A_eq0 (V3 m ρ) c 1).trans (W3_v16 m ρ c)))

theorem W4_v17 : W4 m ρ c (Proc.devRef .tc main_v17) = h0 m c :=
  (W4_arr m ρ c 0).trans (((dat0 (V3 m ρ) c).arrAt_in 0 rfl _).trans ((A_eq0 (V3 m ρ) c 0).trans (W3_v17 m ρ c)))

theorem W4_v18 : W4 m ρ c (Proc.devRef .tc main_v18) = g0 m c := by
  refine (W4_arr m ρ c 2).trans ((ScalePass.arr_scaled (V3 m ρ) c).trans ?_)
  show scaleRows (W3 m ρ c (Proc.devRef .tc main_v17)) (W3 m ρ c (Proc.devRef .tc main_v16)) = _
  rw [W3_v17, W3_v16]; rfl

/-! ## The first layer -/

theorem W5_v2 : W5 m ρ c (Proc.devRef .tc main_v2) = src m c :=
  (StableHlo.after_of_forall_not_mem (b := (Proc.devRef .tc main_v2)) hostOps1 (W4 m ρ c) (by unwritten)).trans (W4_v2 m ρ c)

theorem W5_v5 : W5 m ρ c (Proc.devRef .tc main_v5) = dst m c :=
  (StableHlo.after_of_forall_not_mem (b := (Proc.devRef .tc main_v5)) hostOps1 (W4 m ρ c) (by unwritten)).trans (W4_v5 m ρ c)

theorem W5_v16 : W5 m ρ c (Proc.devRef .tc main_v16) = ncol m c :=
  (StableHlo.after_of_forall_not_mem (b := (Proc.devRef .tc main_v16)) hostOps1 (W4 m ρ c) (by unwritten)).trans (W4_v16 m ρ c)

theorem W5_v17 : W5 m ρ c (Proc.devRef .tc main_v17) = h0 m c :=
  (StableHlo.after_of_forall_not_mem (b := (Proc.devRef .tc main_v17)) hostOps1 (W4 m ρ c) (by unwritten)).trans (W4_v17 m ρ c)

set_option maxHeartbeats 4000000 in
theorem W5_v28 : W5 m ρ c (Proc.devRef .tc main_v28) = x1 m c := by
  have h : W5 m ρ c (Proc.devRef .tc main_v28)
      = aggregate (F := F) (W4 m ρ c (Proc.devRef .tc main_v18)) (W4 m ρ c (Proc.devRef .tc main_v2)) (W4 m ρ c (Proc.devRef .tc main_v5)) := by
    show StableHlo.after hostOps1 (W4 m ρ c) (Proc.devRef .tc main_v28) = _
    dsimp only [hostOps1]
    after_results
    rfl
  rw [h, W4_v18, W4_v2, W4_v5]; rfl

theorem W6_v2 : W6 m ρ c (Proc.devRef .tc main_v2) = src m c :=
  (W6_of_ne m ρ c main_v2 (by decide)).trans (W5_v2 m ρ c)

theorem W6_v5 : W6 m ρ c (Proc.devRef .tc main_v5) = dst m c :=
  (W6_of_ne m ρ c main_v5 (by decide)).trans (W5_v5 m ρ c)

theorem W6_v16 : W6 m ρ c (Proc.devRef .tc main_v16) = ncol m c :=
  (W6_arr m ρ c 1).trans (((dat1 (V5 m ρ) c).arrAt_in 1 rfl _).trans ((A_eq1 (V5 m ρ) c 1).trans (W5_v16 m ρ c)))

theorem W6_v29_0 : W6 m ρ c (Proc.devRef .tc main_v29_0) = g1 m c := by
  refine (W6_arr m ρ c 3).trans ((LayerPass1.arr_next (V5 m ρ) c).trans ?_)
  show scaleRowsTwice (W5 m ρ c (Proc.devRef .tc main_v28)) (W5 m ρ c (Proc.devRef .tc main_v16)) = _
  rw [W5_v28, W5_v16]; rfl
theorem W6_v29_1 : W6 m ρ c (Proc.devRef .tc main_v29_1) = s1 m c := by
  refine (W6_arr m ρ c 4).trans ((LayerPass1.arr_sum (V5 m ρ) c).trans ?_)
  show addScaledRows (W5 m ρ c (Proc.devRef .tc main_v28)) (W5 m ρ c (Proc.devRef .tc main_v16)) (W5 m ρ c (Proc.devRef .tc main_v17)) = _
  rw [W5_v28, W5_v16, W5_v17]; rfl

/-! ## The second layer -/

theorem W7_v2 : W7 m ρ c (Proc.devRef .tc main_v2) = src m c :=
  (StableHlo.after_of_forall_not_mem (b := (Proc.devRef .tc main_v2)) hostOps2 (W6 m ρ c) (by unwritten)).trans (W6_v2 m ρ c)

theorem W7_v5 : W7 m ρ c (Proc.devRef .tc main_v5) = dst m c :=
  (StableHlo.after_of_forall_not_mem (b := (Proc.devRef .tc main_v5)) hostOps2 (W6 m ρ c) (by unwritten)).trans (W6_v5 m ρ c)

theorem W7_v16 : W7 m ρ c (Proc.devRef .tc main_v16) = ncol m c :=
  (StableHlo.after_of_forall_not_mem (b := (Proc.devRef .tc main_v16)) hostOps2 (W6 m ρ c) (by unwritten)).trans (W6_v16 m ρ c)

theorem W7_v29_1 : W7 m ρ c (Proc.devRef .tc main_v29_1) = s1 m c :=
  (StableHlo.after_of_forall_not_mem (b := (Proc.devRef .tc main_v29_1)) hostOps2 (W6 m ρ c) (by unwritten)).trans (W6_v29_1 m ρ c)

set_option maxHeartbeats 4000000 in
theorem W7_v39 : W7 m ρ c (Proc.devRef .tc main_v39) = x2 m c := by
  have h : W7 m ρ c (Proc.devRef .tc main_v39)
      = aggregate (F := F) (W6 m ρ c (Proc.devRef .tc main_v29_0)) (W6 m ρ c (Proc.devRef .tc main_v2)) (W6 m ρ c (Proc.devRef .tc main_v5)) := by
    show StableHlo.after hostOps2 (W6 m ρ c) (Proc.devRef .tc main_v39) = _
    dsimp only [hostOps2]
    after_results
    rfl
  rw [h, W6_v29_0, W6_v2, W6_v5]; rfl

theorem W8_v2 : W8 m ρ c (Proc.devRef .tc main_v2) = src m c :=
  (W8_of_ne m ρ c main_v2 (by decide)).trans (W7_v2 m ρ c)

theorem W8_v5 : W8 m ρ c (Proc.devRef .tc main_v5) = dst m c :=
  (W8_of_ne m ρ c main_v5 (by decide)).trans (W7_v5 m ρ c)

theorem W8_v16 : W8 m ρ c (Proc.devRef .tc main_v16) = ncol m c :=
  (W8_arr m ρ c 1).trans (((dat2 (V7 m ρ) c).arrAt_in 1 rfl _).trans ((A_eq2 (V7 m ρ) c 1).trans (W7_v16 m ρ c)))

theorem W8_v40_0 : W8 m ρ c (Proc.devRef .tc main_v40_0) = g2 m c := by
  refine (W8_arr m ρ c 3).trans ((LayerPass2.arr_next (V7 m ρ) c).trans ?_)
  show scaleRowsTwice (W7 m ρ c (Proc.devRef .tc main_v39)) (W7 m ρ c (Proc.devRef .tc main_v16)) = _
  rw [W7_v39, W7_v16]; rfl
theorem W8_v40_1 : W8 m ρ c (Proc.devRef .tc main_v40_1) = s2 m c := by
  refine (W8_arr m ρ c 4).trans ((LayerPass2.arr_sum (V7 m ρ) c).trans ?_)
  show addScaledRows (W7 m ρ c (Proc.devRef .tc main_v39)) (W7 m ρ c (Proc.devRef .tc main_v16)) (W7 m ρ c (Proc.devRef .tc main_v29_1)) = _
  rw [W7_v39, W7_v16, W7_v29_1]; rfl

/-! ## The third layer -/

theorem W9_v16 : W9 m ρ c (Proc.devRef .tc main_v16) = ncol m c :=
  (StableHlo.after_of_forall_not_mem (b := (Proc.devRef .tc main_v16)) hostOps3 (W8 m ρ c) (by unwritten)).trans (W8_v16 m ρ c)

theorem W9_v40_1 : W9 m ρ c (Proc.devRef .tc main_v40_1) = s2 m c :=
  (StableHlo.after_of_forall_not_mem (b := (Proc.devRef .tc main_v40_1)) hostOps3 (W8 m ρ c) (by unwritten)).trans (W8_v40_1 m ρ c)

set_option maxHeartbeats 4000000 in
theorem W9_v50 : W9 m ρ c (Proc.devRef .tc main_v50) = x3 m c := by
  have h : W9 m ρ c (Proc.devRef .tc main_v50)
      = aggregate (F := F) (W8 m ρ c (Proc.devRef .tc main_v40_0)) (W8 m ρ c (Proc.devRef .tc main_v2)) (W8 m ρ c (Proc.devRef .tc main_v5)) := by
    show StableHlo.after hostOps3 (W8 m ρ c) (Proc.devRef .tc main_v50) = _
    dsimp only [hostOps3]
    after_results
    rfl
  rw [h, W8_v40_0, W8_v2, W8_v5]; rfl

theorem W10_v51_1 : W10 m ρ c (Proc.devRef .tc main_v51_1) = s3 m c := by
  refine (W10_arr m ρ c 4).trans ((LayerPass3.arr_sum (V9 m ρ) c).trans ?_)
  show addScaledRows (W9 m ρ c (Proc.devRef .tc main_v50)) (W9 m ρ c (Proc.devRef .tc main_v16)) (W9 m ρ c (Proc.devRef .tc main_v40_1)) = _
  rw [W9_v50, W9_v16, W9_v40_1]; rfl

/-! ## The mean, and the result -/

/-- THE RESULT BUFFER at the last boundary is the program's result function of the argument arrays. -/
theorem result_eq : W11 m ρ c (Proc.devRef .tc main_v52) = kernelOut (F := F) (m ((c : Thread nD τ).loc main_arg0)) (m ((c : Thread nD τ).loc main_arg1)) (m ((c : Thread nD τ).loc main_arg2)) (m ((c : Thread nD τ).loc main_arg3)) := by
  refine (W11_arr m ρ c 1).trans ((MeanPass.arr_mean (V10 m ρ) c).trans ?_)
  show quarter (W10 m ρ c (Proc.devRef .tc main_v51_1)) = _
  rw [W10_v51_1]; exact quarter_s3 m c

end Cert.KernelIdeal.Fold

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledGather.lean ====
/-
  GENERAL LEMMA: a per-node scale moves through a row gather.

  For a node array  h : [N, C],  a per-node factor  v : [N]  and a column  idx : [E, 1]  of node numbers (one per edge),
  for ANY extents N > 0, E, C and any index width: scaling every row of h by its node's factor and THEN gathering the
  rows along the edges gives, at edge e and feature f, the gathered row entry times the gathered factor,
      (h · v)[idx][e, f] = h[idx][e, f] · v[idx][e]
  (row gather: offset_dims [1], collapsed_slice_dims [0], start_index_map [0], index_vector_dim 1, slice_sizes [1, C];
  element gather: offset_dims [], collapsed_slice_dims [0], start_index_map [0], index_vector_dim 1, slice_sizes [1]).
  Both gathers read the same row, idx[e, 0] read signed and clamped into [0, N − 1], so this is the product read at
  that row: no algebra on the extended reals, and nothing has to be finite. It is what lets a message-passing layer
  that scales each message after the gather (h[src] · v[src]) be compared with one that gathers a pre-scaled array.
  NEEDS LibEdgeReads beside it (the two gathers read at an index).
-/
import Idealize.ShloMosaic.Lib.ValueIdx
import Idealize.ShloMosaic.Lib.Pipeline.Value
import Idealize.ShloMosaic.PureOps.Ideal
import proofs.«146842_j69329362092551_1_alg».proof.Proof.LibEdgeReads

noncomputable section

namespace Cert.LibScaledGather

open Idealize.ShloMosaic Idealize.ShloMosaic.ValueIdx Cert.LibEdgeReads

/-- Rows of `h` scaled by the node factor `v`, gathered along the edges: at `(e, f)` the gathered entry times the
    gathered factor. -/
theorem gather_scaled_rows {N E C w : ℕ} (hN : 0 < N)
    (wfR : GatherDims.WF ⟨2, ![N, C]⟩ ⟨2, ![E, 1]⟩ ⟨2, ![E, C]⟩ [1] [0] [] [0] [] 1 ![1, C])
    (dR : GatherDims ⟨2, ![N, C]⟩ ⟨2, ![E, 1]⟩ ⟨2, ![E, C]⟩) (hdR : dR = rowGatherDims N E C wfR)
    (wfE : GatherDims.WF ⟨1, ![N]⟩ ⟨2, ![E, 1]⟩ ⟨1, ![E]⟩ [] [0] [] [0] [] 1 ![1])
    (dE : GatherDims ⟨1, ![N]⟩ ⟨2, ![E, 1]⟩ ⟨1, ![E]⟩) (hdE : dE = eltGatherDims N E wfE)
    (h : (⟨2, ![N, C]⟩ : Shape).Idx → EReal) (v : (⟨1, ![N]⟩ : Shape).Idx → EReal)
    (idx : IVec ⟨2, ![E, 1]⟩ w) (e : Fin E) (f : Fin C) :
    Host.gather dR (fun i => h i * v (ix1 (n := N) (i 0))) idx (ix2 e f)
      = Host.gather dR h idx (ix2 e f) * Host.gather dE v idx (ix1 e) := by
  rw [gather_rows_apply hN wfR dR hdR, gather_rows_apply hN wfR dR hdR, gather_elts_apply hN wfE dE hdE]
  rfl

end Cert.LibScaledGather

end
-- ==== Proof.LayerLaw.lean ====
/-
  One message-passing layer two ways, on the extended reals.

  Write n for the per-node factor, N = n as a column [150000, 1] spread over the 64 features, and for a node array g let
  agg g = the scatter-add over the edges' targets of the rows of g gathered at the edges' sources. The reference's layer
  of a node array h is
      N · scatter-add (h[src] · n[src])          (each message scaled after the gather),
  and it equals
      (agg (h · N)) · N                          (gather the pre-scaled array, scale the aggregate):
  scaling the rows and then gathering is gathering and then scaling by the gathered factor (LibScaledGather), and the
  outer product commutes. No distributivity is used and nothing has to be finite.
-/
import proofs.«146842_j69329362092551_1_alg».proof.Proof.Gen.ReferenceIdeal
import proofs.«146842_j69329362092551_1_alg».proof.Proof.LibScaledGather
import Idealize.ShloMosaic.Lib.Pipeline.Value
import Idealize.ShloMosaic.PureOps.Ideal

noncomputable section

namespace Cert.LayerLaw

open Idealize.ShloMosaic Idealize.ShloMosaic.ValueIdx
open Cert.ReferenceIdeal Cert.ReferenceIdeal.Facts₀ Cert.ReferenceIdeal.Facts

/-! ## One layer -/

section Layer

variable (n : FVec Ideal S150000 .f32)
variable (s d : IVec S4000000x1 32)

/-- The per-node factor as a column. -/
abbrev col : FVec Ideal S150000x1 .f32 :=
  broadcastInDim S150000x1 ![0] bcast_S150000_S150000x1_0 n

/-- The column's entry of node `r` is the factor of node `r`. -/
theorem col_apply (r : Fin 150000) : col n (ix2 r (0 : Fin 1)) = n (ix1 r) :=
  broadcastInDim_apply _ bcast_S150000_S150000x1_0 n (ix2 r (0 : Fin 1)) (ix1 r)
    (fun a => by match a with | ⟨0, _⟩ => rfl)

/-- Every row of `h` times its node's factor. -/
abbrev scaled (h : FVec Ideal S150000x64 .f32) : FVec Ideal S150000x64 .f32 :=
  fun i => h i * col n (ix2 (n0 := 150000) (i 0) (0 : Fin 1))

/-- Gather rows at the sources, add them into the targets' rows. -/
abbrev agg (g : FVec Ideal S150000x64 .f32) : FVec Ideal S150000x64 .f32 :=
  Host.scatterAdd scatter_S150000x64_S4000000x1_S4000000x64_1_0_0_1
    (broadcastInDim S150000x64 ![] bcast_S_S150000x64 (constant (F := Ideal) S_ .f32 0x00000000#32)) d
    (Host.gather gather_S150000x64_S4000000x1_S4000000x64_1_0_n_n_0_1_164 g s)

/-- The reference's messages: the gathered rows times the gathered factor spread over the features. -/
abbrev messages (h : FVec Ideal S150000x64 .f32) : FVec Ideal S4000000x64 .f32 :=
  mulf (F := Ideal) (Host.gather gather_S150000x64_S4000000x1_S4000000x64_1_0_n_n_0_1_164 h s)
    (broadcastInDim S4000000x64 ![0, 1] bcast_S4000000x1_S4000000x64_0_1
      (broadcastInDim S4000000x1 ![0] bcast_S4000000_S4000000x1_0
        (Host.gather gather_S150000_S4000000x1_S4000000_n_0_n_n_0_1_1 n s)))

/-- The reference's messages are the rows of the pre-scaled array gathered at the sources. -/
theorem messages_eq (h : FVec Ideal S150000x64 .f32) :
    messages n s h = Host.gather gather_S150000x64_S4000000x1_S4000000x64_1_0_n_n_0_1_164 (scaled n h) s := by
  funext j
  obtain ⟨e, f, rfl⟩ : ∃ (e : Fin 4000000) (f : Fin 64), j = ix2 e f := ⟨j 0, j 1, eq_ix2 j⟩
  have hs : scaled n h = fun i => h i * n (ix1 (n := 150000) (i 0)) := by
    funext i; exact congrArg (h i * ·) (col_apply n (i 0))
  rw [hs]
  refine Eq.trans ?_ (Cert.LibScaledGather.gather_scaled_rows (N := 150000) (E := 4000000) (C := 64) (by norm_num)
    gather_S150000x64_S4000000x1_S4000000x64_1_0_n_n_0_1_164_wf gather_S150000x64_S4000000x1_S4000000x64_1_0_n_n_0_1_164 rfl
    gather_S150000_S4000000x1_S4000000_n_0_n_n_0_1_1_wf gather_S150000_S4000000x1_S4000000_n_0_n_n_0_1_1 rfl h n s e f).symm
  show Host.gather gather_S150000x64_S4000000x1_S4000000x64_1_0_n_n_0_1_164 h s (ix2 e f)
      * broadcastInDim S4000000x64 ![0, 1] bcast_S4000000x1_S4000000x64_0_1
          (broadcastInDim S4000000x1 ![0] bcast_S4000000_S4000000x1_0
            (Host.gather gather_S150000_S4000000x1_S4000000_n_0_n_n_0_1_1 n s)) (ix2 e f) = _
  refine congrArg (_ * ·) ?_
  refine (broadcastInDim_apply _ bcast_S4000000x1_S4000000x64_0_1 _ (ix2 e f) (ix2 e (0 : Fin 1))
    (fun a => by match a with | ⟨0, _⟩ => rfl | ⟨1, _⟩ => rfl)).trans ?_
  exact broadcastInDim_apply _ bcast_S4000000_S4000000x1_0 _ (ix2 e (0 : Fin 1)) (ix1 e)
    (fun a => by match a with | ⟨0, _⟩ => rfl)

/-- THE LAYER: the factor column spread over the features times the scatter-add of the reference's messages is the
    aggregation of the pre-scaled array, every row times its node's factor. -/
theorem layer_eq (h : FVec Ideal S150000x64 .f32) :
    mulf (F := Ideal) (broadcastInDim S150000x64 ![0, 1] bcast_S150000x1_S150000x64_0_1 (col n))
      (Host.scatterAdd scatter_S150000x64_S4000000x1_S4000000x64_1_0_0_1
        (broadcastInDim S150000x64 ![] bcast_S_S150000x64 (constant (F := Ideal) S_ .f32 0x00000000#32)) d (messages n s h))
    = scaled n (agg s d (scaled n h)) := by
  rw [messages_eq]
  funext i
  refine (mulf_apply _ _ i).trans ?_
  refine (congrArg (· * _) (broadcastInDim_apply _ bcast_S150000x1_S150000x64_0_1 (col n) i
    (ix2 (n0 := 150000) (i 0) (0 : Fin 1)) (fun a => by match a with | ⟨0, _⟩ => rfl | ⟨1, _⟩ => rfl))).trans ?_
  exact mul_comm _ _

end Layer

end Cert.LayerLaw

end
-- ==== Proof.MeanConsts.lean ====
/-
  The two float literals of the mean over the four stacked embeddings, as the extended reals their patterns denote:
  the reference divides by 4.0, the kernel multiplies by 0.25; both are exact binary floats.
-/
import Idealize.ShloMosaic.PureOps.Ideal

noncomputable section

namespace Cert.MeanConsts

open Idealize.ShloMosaic

/-- The reference's divisor `4.0` denotes the real 4. -/
theorem ofBits_four : Ideal.ofBits .f32 0x40800000#32 = ((4 : ℝ) : EReal) := by
  simp [Ideal.ofBits, Ideal.ieee, -EReal.coe_mul]; norm_num

/-- The kernel's factor `0.25` denotes the real 1/4. -/
theorem ofBits_quarter : Ideal.ofBits .f32 0x3E800000#32 = ((1 / 4 : ℝ) : EReal) := by
  simp [Ideal.ofBits, Ideal.ieee, -EReal.coe_mul]; norm_num

end Cert.MeanConsts

end
-- ==== Proof.Bridge.lean ====
/-
  The kernel's result function and the reference's are one function of the argument arrays, on the extended reals.

  Write n for the per-node factor, N = n as a column spread over the 64 features, and for a node array g let
  agg g = scatter-add over the edges' targets of the rows of g gathered at the edges' sources.

  reference, per layer:  h' = N · scatter-add (h[src] · n[src]),   sum' = sum + h';        result = sum₃ / 4.0
  kernel:    g₀ = h₀ · N;  per layer  x = agg g,  g' = (x · N) · N,   sum' = sum + x · N;  result = sum₃ · 0.25

  * The reference's layer of h is  (agg (h · N)) · N  (LayerLaw: scaling the rows and then gathering is gathering and
    then scaling by the gathered factor; the product commutes). No distributivity is used and nothing has to be finite.
  * Layer by layer the kernel's pre-scaled array is  h · N  for the reference's h, so the aggregated messages x₁, x₂, x₃
    are the same arrays on both sides and the two running sums  h₀ + x₁·N + x₂·N + x₃·N  agree term by term.
  * 4.0 and 0.25 are exact binary floats, and on every extended real dividing by the real 4 is multiplying by 1/4.
-/
import proofs.«146842_j69329362092551_1_alg».proof.Proof.KernelFold
import proofs.«146842_j69329362092551_1_alg».proof.Proof.ReferenceRead
import proofs.«146842_j69329362092551_1_alg».proof.Proof.LayerLaw
import proofs.«146842_j69329362092551_1_alg».proof.Proof.MeanConsts

noncomputable section

namespace Cert.Bridge

open Idealize.ShloMosaic Idealize.ShloMosaic.ValueIdx
open Cert.ReferenceIdeal Cert.ReferenceIdeal.Facts₀ Cert.ReferenceIdeal.Facts Cert.ReferenceIdeal.ReadP Cert.LayerLaw

variable (a0 : (⟨S100000x64, .f32⟩ : BufTy).Contents (Elt Ideal)) (a1 : (⟨S50000x64, .f32⟩ : BufTy).Contents (Elt Ideal))
variable (a2 a3 : (⟨S2000000, .i32⟩ : BufTy).Contents (Elt Ideal))

/-- The per-node factor, the wrapped sources as a column, the targets as a column and the node array, as the reference
    computes them. -/
abbrev nR : (⟨S150000, .f32⟩ : BufTy).Contents (Elt Ideal) := val_main_v15 (F := Ideal) a2 a3
abbrev sR : (⟨S4000000x1, .i32⟩ : BufTy).Contents (Elt Ideal) := val_main_v22 (F := Ideal) a2 a3
abbrev dR : (⟨S4000000x1, .i32⟩ : BufTy).Contents (Elt Ideal) := val_main_v36 (F := Ideal) a2 a3
abbrev hR : (⟨S150000x64, .f32⟩ : BufTy).Contents (Elt Ideal) := val_main_v16 (F := Ideal) a0 a1

/-- The three layers' aggregated messages. -/
def x1 : (⟨S150000x64, .f32⟩ : BufTy).Contents (Elt Ideal) := agg (sR a2 a3) (dR a2 a3) (scaled (nR a2 a3) (hR a0 a1))
def x2 : (⟨S150000x64, .f32⟩ : BufTy).Contents (Elt Ideal) :=
  agg (sR a2 a3) (dR a2 a3) (scaled (nR a2 a3) (scaled (nR a2 a3) (x1 a0 a1 a2 a3)))
def x3 : (⟨S150000x64, .f32⟩ : BufTy).Contents (Elt Ideal) :=
  agg (sR a2 a3) (dR a2 a3) (scaled (nR a2 a3) (scaled (nR a2 a3) (x2 a0 a1 a2 a3)))

/-! ## The reference, layer by layer -/

theorem ref_layer1 : val_main_v39 (F := Ideal) a0 a1 a2 a3 = scaled (nR a2 a3) (x1 a0 a1 a2 a3) :=
  layer_eq (nR a2 a3) (sR a2 a3) (dR a2 a3) (hR a0 a1)

theorem ref_layer2 : val_main_v63 (F := Ideal) a0 a1 a2 a3 = scaled (nR a2 a3) (x2 a0 a1 a2 a3) := by
  have h : val_main_v63 (F := Ideal) a0 a1 a2 a3
      = scaled (nR a2 a3) (agg (sR a2 a3) (dR a2 a3) (scaled (nR a2 a3) (val_main_v39 (F := Ideal) a0 a1 a2 a3))) :=
    layer_eq (nR a2 a3) (sR a2 a3) (dR a2 a3) (val_main_v39 (F := Ideal) a0 a1 a2 a3)
  rw [h, ref_layer1]; rfl

theorem ref_layer3 : val_main_v87 (F := Ideal) a0 a1 a2 a3 = scaled (nR a2 a3) (x3 a0 a1 a2 a3) := by
  have h : val_main_v87 (F := Ideal) a0 a1 a2 a3
      = scaled (nR a2 a3) (agg (sR a2 a3) (dR a2 a3) (scaled (nR a2 a3) (val_main_v63 (F := Ideal) a0 a1 a2 a3))) :=
    layer_eq (nR a2 a3) (sR a2 a3) (dR a2 a3) (val_main_v63 (F := Ideal) a0 a1 a2 a3)
  rw [h, ref_layer2]; rfl

/-- The reference's sum of the four stacked embeddings. -/
theorem ref_sum : val_main_v88 (F := Ideal) a0 a1 a2 a3
    = addf (addf (addf (hR a0 a1) (scaled (nR a2 a3) (x1 a0 a1 a2 a3))) (scaled (nR a2 a3) (x2 a0 a1 a2 a3)))
        (scaled (nR a2 a3) (x3 a0 a1 a2 a3)) := by
  unfold val_main_v88 val_main_v64 val_main_v40
  rw [ref_layer1, ref_layer2, ref_layer3]

/-! ## The kernel's maps are the reference's -/

theorem sources_eq : Cert.KernelIdeal.HostMaps.sources (F := Ideal) a2 a3 = val_main_v2 (F := Ideal) a2 a3 := rfl
theorem targets_eq : Cert.KernelIdeal.HostMaps.targets (F := Ideal) a2 a3 = val_main_v5 (F := Ideal) a2 a3 := rfl
theorem wrapped_eq : Cert.KernelIdeal.HostMaps.wrapped (F := Ideal) (val_main_v2 (F := Ideal) a2 a3) = sR a2 a3 := rfl
theorem column_eq : (broadcastInDim S4000000x1 ![0] bcast_S4000000_S4000000x1_0 (val_main_v5 (F := Ideal) a2 a3) :
    (⟨S4000000x1, .i32⟩ : BufTy).Contents (Elt Ideal)) = dR a2 a3 := rfl
theorem normCol_eq : Cert.KernelIdeal.HostMaps.normCol (F := Ideal) (val_main_v5 (F := Ideal) a2 a3) = col (nR a2 a3) := rfl
theorem nodes_eq : Cert.KernelIdeal.HostMaps.nodes (F := Ideal) a0 a1 = hR a0 a1 := rfl

/-- The kernel's aggregation is the reference's scatter-add of gathered rows. -/
theorem aggregate_eq (g : (⟨S150000x64, .f32⟩ : BufTy).Contents (Elt Ideal)) :
    Cert.KernelIdeal.HostMaps.aggregate (F := Ideal) g (val_main_v2 (F := Ideal) a2 a3) (val_main_v5 (F := Ideal) a2 a3)
      = agg (sR a2 a3) (dR a2 a3) g := rfl

/-- The kernel's sum of the four stacked embeddings is the reference's. -/
theorem kernel_sum :
    Cert.KernelIdeal.HostMaps.kernelOut (F := Ideal) a0 a1 a2 a3
      = Cert.KernelIdeal.NodeMaps.quarter (F := Ideal) (val_main_v88 (F := Ideal) a0 a1 a2 a3) := by
  rw [ref_sum]
  unfold Cert.KernelIdeal.HostMaps.kernelOut
  simp only [sources_eq, targets_eq, normCol_eq, nodes_eq, aggregate_eq]
  rfl

/-- THE TWO RESULTS ARE ONE FUNCTION of the argument arrays. -/
theorem result_eq : Cert.KernelIdeal.HostMaps.kernelOut (F := Ideal) a0 a1 a2 a3 = val_main_v90 (F := Ideal) a0 a1 a2 a3 := by
  rw [kernel_sum]
  funext i
  show val_main_v88 (F := Ideal) a0 a1 a2 a3 i * Ideal.ofBits .f32 0x3E800000#32
    = Ideal.div (val_main_v88 (F := Ideal) a0 a1 a2 a3 i) (Ideal.ofBits .f32 0x40800000#32)
  rw [Cert.MeanConsts.ofBits_quarter, Cert.MeanConsts.ofBits_four, Ideal.div_coe (by norm_num : (4 : ℝ) ≠ 0)]

end Cert.Bridge

end
-- ==== Proof.lean ====
/-
  LightGCN on a bipartite user–item graph: three rounds of symmetric-normalised message passing over 150000 nodes with
  64 features and 4,000,000 directed edges, and the mean of the four stacked embeddings.

  Both programs compute, with n = 1/sqrt(max(deg,1)) (0 at isolated nodes) and agg g = the scatter-add over the edges'
  targets of the rows of g gathered at the edges' sources,
      h₀ = the node array,   hₗ₊₁ = n · agg (n · hₗ),   result = (h₀ + h₁ + h₂ + h₃) / 4.
  The reference scales each message after the gather (h[src] · n[src]) and divides the sum by 4.0; the kernel keeps a
  pre-scaled node array g = h · n, so that its messages are plain gathered rows, and multiplies the sum by 0.25.
  On the extended reals the two agree by the definition of the gather (the scaled row is read at the same clamped
  row), commutativity of the product, and x / 4 = x · (1/4); no distributivity is used and no entry has to be finite,
  so the precondition is never opened.

  The kernel program's value is read off its generated frame: its run with the result named (KernelRun), each launch's
  output arrays as whole-array functions (ScalePass, LayerPass1–3, MeanPass), and the contents of the live buffers
  followed through the eleven boundaries to the result (KernelFold). The reference's value is its run read back stage
  by stage (ReferenceRun, ReferenceRead). Bridge joins the two.
-/
import proofs.«146842_j69329362092551_1_alg».proof.Defs
import proofs.«146842_j69329362092551_1_alg».proof.Proof.Gen.Kernel
import proofs.«146842_j69329362092551_1_alg».proof.Proof.Gen.Kernel.Frame
import proofs.«146842_j69329362092551_1_alg».proof.Proof.Gen.KernelIdeal
import proofs.«146842_j69329362092551_1_alg».proof.Proof.Gen.KernelIdeal.Frame
import proofs.«146842_j69329362092551_1_alg».proof.Proof.Gen.ReferenceIdeal
import proofs.«146842_j69329362092551_1_alg».proof.Proof.Gen.Pre_finite_inputs
import proofs.«146842_j69329362092551_1_alg».proof.Proof.KernelRun
import proofs.«146842_j69329362092551_1_alg».proof.Proof.KernelFold
import proofs.«146842_j69329362092551_1_alg».proof.Proof.ReferenceRun
import proofs.«146842_j69329362092551_1_alg».proof.Proof.ReferenceRead
import proofs.«146842_j69329362092551_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read on the extended reals. -/
theorem preserves : Cert.preserves_Kernel_KernelIdeal := trivial

/-- From memories agreeing on the arguments both programs end with the same result array: the kernel's at its result
    function of the arguments (its run, and the fold through its launches), the reference's at its last stage (its
    run), and the two are one function (Bridge). -/
theorem algebraic : Cert.algebraic_KernelIdeal_ReferenceIdeal := by
  intro m ρ m' ρ' _ hagree
  refine ⟨fun c => Cert.KernelIdeal.HostMaps.kernelOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2]
    exact (Cert.Bridge.result_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
